-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v26) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S512x1024 : Shape := ⟨2, ![512, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S512x1024 : S_.BroadcastsInDim S512x1024 (![] : Fin 0 → Fin S512x1024.rank)
  reducesTo_S512x1024_S_d0_1 : S512x1024.ReducesTo [0, 1] S_

variable [Facts]

def fn_part2 {F : FTy → Type} [FloatOps F] (main_arg7 : FVec F S8192x1024 .f32) (main_v33 : IVec S_ 1) : IVec S_ 1 :=
  let main_v34 : FVec F S8192x1024 .f32 := Host.absf main_arg7
  let main_cst_12 : FVec F S_ .f32 := constant S_ .f32 0x7F800000#32
  let main_v35 : FVec F S8192x1024 .f32 := broadcastInDim S8192x1024 ![] bcast_S_S8192x1024 main_cst_12
  let main_v36 : IVec S8192x1024 1 := cmpf .olt main_v34 main_v35
  let main_c_13 : IVec S_ 1 := constantI S_ 1 1#1
  let main_v37 : IVec S_ 1 := (fun x v => Host.reduce IntOp.andi x v reducesTo_S8192x1024_S_d0_1 h_S_) main_v36 main_c_13
  let main_v38 : IVec S_ 1 := andi main_v33 main_v37
  main_v38

def fn_part1 {F : FTy → Type} [FloatOps F] (main_arg4 : FVec F S1024 .f32) (main_arg5 : FVec F S512x1024 .f32) (main_arg6 : FVec F S512x1024 .f32) (main_arg7 : FVec F S8192x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S512x1024 .f32 := Host.absf main_arg5
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S512x1024 .f32 := Host.absf main_arg6
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S1024x1024 .f32) (main_arg2 : FVec F S1024 .f32) (main_arg3 : FVec F S1024x1024 .f32) (main_arg4 : FVec F S1024 .f32) (main_arg5 : FVec F S512x1024 .f32) (main_arg6 : FVec F S512x1024 .f32) (main_arg7 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S512x1024 : Shape := ⟨2, ![512, 1024]⟩
abbrev S_ : Shape := ⟨0, ![]⟩
abbrev S512 : Shape := ⟨1, ![512]⟩
abbrev S1x512 : Shape := ⟨2, ![1, 512]⟩
abbrev S1024x512 : Shape := ⟨2, ![1024, 512]⟩
abbrev S1x1024 : Shape := ⟨2, ![1, 1024]⟩
abbrev S8192x512 : Shape := ⟨2, ![8192, 512]⟩
abbrev S8192x1 : Shape := ⟨2, ![8192, 1]⟩
abbrev S256x1024 : Shape := ⟨2, ![256, 1024]⟩
abbrev S256x512 : Shape := ⟨2, ![256, 512]⟩
abbrev S256x1 : Shape := ⟨2, ![256, 1]⟩
abbrev S256 : Shape := ⟨1, ![256]⟩
abbrev S8192 : Shape := ⟨1, ![8192]⟩

abbrev nBuf : Space → Nat
  | .hbm => 43
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S512x1024, .f32⟩
  | .hbm, ⟨6, _⟩ => ⟨S512x1024, .f32⟩
  | .hbm, ⟨7, _⟩ => ⟨S8192x1024, .f32⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S512x1024, .f32⟩
  | .hbm, ⟨16, _⟩ => ⟨S_, .f32⟩
  | .hbm, ⟨17, _⟩ => ⟨S512, .f32⟩
  | .hbm, ⟨18, _⟩ => ⟨S1x512, .f32⟩
  | .hbm, ⟨19, _⟩ => ⟨S_, .f32⟩
  | .hbm, ⟨20, _⟩ => ⟨S512, .f32⟩
  | .hbm, ⟨21, _⟩ => ⟨S1x512, .f32⟩
  | .hbm, ⟨22, _⟩ => ⟨S1024x512, .f32⟩
  | .hbm, ⟨23, _⟩ => ⟨S1024x512, .bf16⟩
  | .hbm, ⟨24, _⟩ => ⟨S1024x512, .f32⟩
  | .hbm, ⟨25, _⟩ => ⟨S1024x512, .bf16⟩
  | .hbm, ⟨26, _⟩ => ⟨S1x1024, .f32⟩
  | .hbm, ⟨27, _⟩ => ⟨S1x1024, .f32⟩
  | .hbm, ⟨28, _⟩ => ⟨S8192x1024, .f32⟩
  | .hbm, ⟨29, _⟩ => ⟨S8192x512, .f32⟩
  | .hbm, ⟨30, _⟩ => ⟨S8192x1, .f32⟩
  | .hbm, ⟨31, _⟩ => ⟨S8192, .f32⟩
  | .hbm, ⟨32, _⟩ => ⟨S_, .f32⟩
  | .hbm, ⟨33, _⟩ => ⟨S512, .f32⟩
  | .hbm, ⟨34, _⟩ => ⟨S_, .f32⟩
  | .hbm, ⟨35, _⟩ => ⟨S512, .f32⟩
  | .hbm, ⟨36, _⟩ => ⟨S512, .f32⟩
  | .hbm, ⟨37, _⟩ => ⟨S512, .f32⟩
  | .hbm, ⟨38, _⟩ => ⟨S512, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x512, .bf16⟩
  | .local _ .vmem, ⟨9, _⟩ => ⟨S1024x512, .bf16⟩
  | .local _ .vmem, ⟨10, _⟩ => ⟨S1x512, .f32⟩
  | .local _ .vmem, ⟨11, _⟩ => ⟨S1x512, .f32⟩
  | .local _ .vmem, ⟨12, _⟩ => ⟨S256x1024, .f32⟩
  | .local _ .vmem, ⟨13, _⟩ => ⟨S256x1024, .f32⟩
  | .local _ .vmem, ⟨14, _⟩ => ⟨S256x512, .f32⟩
  | .local _ .vmem, ⟨15, _⟩ => ⟨S256x512, .f32⟩
  | .local _ .vmem, ⟨16, _⟩ => ⟨S256x1, .f32⟩
  | .local _ .vmem, ⟨17, _⟩ => ⟨S256x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v18_2 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  transposes_S1024x1024_S1024x1024_1_0 : S1024x1024.Transposes [1, 0] S1024x1024
  bitsLt_bf16_f32 : FTy.bits .bf16 < FTy.bits .f32
  reducesTo_S512x1024_S512_d1 : S512x1024.ReducesTo [1] S512
  h_S_ : 0 < S_.numel
  shapeCasts_S512_S1x512 : S512.ShapeCasts S1x512
  transposes_S512x1024_S1024x512_1_0 : S512x1024.Transposes [1, 0] S1024x512
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x1024_S256x1024 : S1x1024.Broadcasts S256x1024
  broadcasts_S1x512_S256x512 : S1x512.Broadcasts S256x512
  reduces_S256x512_S256 : S256x512.Reduces [1] S256
  shapeCasts_S256_S256x1 : S256.ShapeCasts S256x1
  broadcasts_S256x1_S256x512 : S256x1.Broadcasts S256x512
  reduces_S256x1024_S256 : S256x1024.Reduces [1] S256
  inb_S256x512_S256x512_0_0 : ∀ a, (![0, 0] : Fin 2 → Nat) a + S256x512.size a ≤ S256x512.size a
  h_S256x512 : 0 < S256x512.numel
  inb_S256x1_S256x1_0_0 : ∀ a, (![0, 0] : Fin 2 → Nat) a + S256x1.size a ≤ S256x1.size a
  h_S256x1 : 0 < S256x1.numel
  shapeCasts_S8192x1_S8192 : S8192x1.ShapeCasts S8192
  reducesTo_S8192x512_S512_d0 : S8192x512.ReducesTo [0] S512
  bcast_S_S512 : S_.BroadcastsInDim S512 (![] : Fin 0 → Fin S512.rank)
  reducesTo_S512_S_d0 : S512.ReducesTo [0] S_
  dot_S256x1024_S1024x1024_S256x1024_1_0_0_1_n_n_wf : DotDims.WF S256x1024 S1024x1024 S256x1024 [1] [0] [0] [1] [] []
  dot_S256x1024_S1024x512_S256x512_1_0_0_1_n_n_wf : DotDims.WF S256x1024 S1024x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S1024x512.size a
  hwx0_6 : ∀ i : grid0.Coords, EltTy.bits .bf16 = 32 ∨ (Rect.block (s := S1024x512) S1024x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S1024x512.size a
  hwx0_7 : ∀ i : grid0.Coords, EltTy.bits .bf16 = 32 ∨ (Rect.block (s := S1024x512) S1024x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x1024.size a ≤ S8192x1024.size a
  hwx0_10 : ∀ i : grid0.Coords, EltTy.bits .f32 = 32 ∨ (Rect.block (s := S8192x1024) S256x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x512.size a ≤ S8192x512.size a
  hwx0_11 : ∀ i : grid0.Coords, EltTy.bits .f32 = 32 ∨ (Rect.block (s := S8192x512) S256x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x1.size a ≤ S8192x1.size a
  hwx0_12 : ∀ i : grid0.Coords, EltTy.bits .f32 = 32 ∨ (Rect.block (s := S8192x1) S256x1.size (cc0_transform_12 i) (hinb0_12 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1024x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S1024x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18_0) S256x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v18_1) S256x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v18_2) S256x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S512x1024 : Shape := ⟨2, ![512, 1024]⟩
abbrev S1x1024 : Shape := ⟨2, ![1, 1024]⟩
abbrev S_ : Shape := ⟨0, ![]⟩
abbrev S512 : Shape := ⟨1, ![512]⟩
abbrev S1024x512 : Shape := ⟨2, ![1024, 512]⟩
abbrev S8192x512 : Shape := ⟨2, ![8192, 512]⟩
abbrev S1x512 : Shape := ⟨2, ![1, 512]⟩
abbrev S8192 : Shape := ⟨1, ![8192]⟩
abbrev S8192x1 : Shape := ⟨2, ![8192, 1]⟩

abbrev nBuf : Space → Nat
  | .hbm => 110
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S512x1024, .f32⟩
  | .hbm, ⟨6, _⟩ => ⟨S512x1024, .f32⟩
  | .hbm, ⟨7, _⟩ => ⟨S8192x1024, .f32⟩
  | .hbm, ⟨8, _⟩ => ⟨S1024x1024, .f32⟩
  | .hbm, ⟨9, _⟩ => ⟨S8192x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S1024x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S512x1024, .f32⟩
  | .hbm, ⟨25, _⟩ => ⟨S512x1024, .f32⟩
  | .hbm, ⟨26, _⟩ => ⟨S512x1024, .f32⟩
  | .hbm, ⟨27, _⟩ => ⟨S512x1024, .f32⟩
  | .hbm, ⟨28, _⟩ => ⟨S_, .f32⟩
  | .hbm, ⟨29, _⟩ => ⟨S512, .f32⟩
  | .hbm, ⟨30, _⟩ => ⟨S8192x1024, .f32⟩
  | .hbm, ⟨31, _⟩ => ⟨S1024x512, .f32⟩
  | .hbm, ⟨32, _⟩ => ⟨S8192x512, .f32⟩
  | .hbm, ⟨33, _⟩ => ⟨S1024x512, .f32⟩
  | .hbm, ⟨34, _⟩ => ⟨S8192x512, .f32⟩
  | .hbm, ⟨35, _⟩ => ⟨S_, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S1x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192x1, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x512, .f32⟩
  | .hbm, ⟨56, _⟩ => ⟨S8192x512, .f32⟩
  | .hbm, ⟨57, _⟩ => ⟨S_, .f32⟩
  | .hbm, ⟨58, _⟩ => ⟨S512, .f32⟩
  | .hbm, ⟨59, _⟩ => ⟨S1x512, .f32⟩
  | .hbm, ⟨60, _⟩ => ⟨S8192x1024, .f32⟩
  | .hbm, ⟨61, _⟩ => ⟨S1024x512, .f32⟩
  | .hbm, ⟨62, _⟩ => ⟨S8192x512, .f32⟩
  | .hbm, ⟨63, _⟩ => ⟨S8192x512, .f32⟩
  | .hbm, ⟨64, _⟩ => ⟨S8192x512, .f32⟩
  | .hbm, ⟨65, _⟩ => ⟨S8192x1024, .f32⟩
  | .hbm, ⟨66, _⟩ => ⟨S1024x512, .f32⟩
  | .hbm, ⟨67, _⟩ => ⟨S8192x512, .f32⟩
  | .hbm, ⟨68, _⟩ => ⟨S1024x512, .f32⟩
  | .hbm, ⟨69, _⟩ => ⟨S8192x512, .f32⟩
  | .hbm, ⟨70, _⟩ => ⟨S_, .f32⟩
  | .hbm, ⟨71, _⟩ => ⟨S8192x512, .f32⟩
  | .hbm, ⟨72, _⟩ => ⟨S8192x512, .f32⟩
  | .hbm, ⟨73, _⟩ => ⟨S8192x512, .f32⟩
  | .hbm, ⟨74, _⟩ => ⟨S1x512, .f32⟩
  | .hbm, ⟨75, _⟩ => ⟨S8192x512, .f32⟩
  | .hbm, ⟨76, _⟩ => ⟨S8192x512, .f32⟩
  | .hbm, ⟨77, _⟩ => ⟨S8192x512, .f32⟩
  | .hbm, ⟨78, _⟩ => ⟨S_, .f32⟩
  | .hbm, ⟨79, _⟩ => ⟨S8192x512, .f32⟩
  | .hbm, ⟨80, _⟩ => ⟨S8192x512, .f32⟩
  | .hbm, ⟨81, _⟩ => ⟨S8192x512, .f32⟩
  | .hbm, ⟨82, _⟩ => ⟨S_, .f32⟩
  | .hbm, ⟨83, _⟩ => ⟨S8192, .f32⟩
  | .hbm, ⟨84, _⟩ => ⟨S_, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S8192, .f32⟩
  | .hbm, ⟨89, _⟩ => ⟨S_, .f32⟩
  | .hbm, ⟨90, _⟩ => ⟨S8192, .f32⟩
  | .hbm, ⟨91, _⟩ => ⟨S8192, .f32⟩
  | .hbm, ⟨92, _⟩ => ⟨S_, .f32⟩
  | .hbm, ⟨93, _⟩ => ⟨S8192, .f32⟩
  | .hbm, ⟨94, _⟩ => ⟨S8192, .f32⟩
  | .hbm, ⟨95, _⟩ => ⟨S_, .f32⟩
  | .hbm, ⟨96, _⟩ => ⟨S8192, .f32⟩
  | .hbm, ⟨97, _⟩ => ⟨S8192, .f32⟩
  | .hbm, ⟨98, _⟩ => ⟨S8192, .f32⟩
  | .hbm, ⟨99, _⟩ => ⟨S_, .f32⟩
  | .hbm, ⟨100, _⟩ => ⟨S512, .f32⟩
  | .hbm, ⟨101, _⟩ => ⟨S_, .f32⟩
  | .hbm, ⟨102, _⟩ => ⟨S512, .f32⟩
  | .hbm, ⟨103, _⟩ => ⟨S512, .f32⟩
  | .hbm, ⟨104, _⟩ => ⟨S512, .f32⟩
  | .hbm, ⟨105, _⟩ => ⟨S512, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_6 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_7 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_8 : Ref sig .tc := ⟨.hbm, 82, rfl⟩
abbrev main_v65 : Ref sig .tc := ⟨.hbm, 83, rfl⟩
abbrev main_cst_9 : Ref sig .tc := ⟨.hbm, 84, rfl⟩
abbrev main_v66 : Ref sig .tc := ⟨.hbm, 85, rfl⟩
abbrev main_v67 : Ref sig .tc := ⟨.hbm, 86, rfl⟩
abbrev main_cst_10 : Ref sig .tc := ⟨.hbm, 87, rfl⟩
abbrev main_v68 : Ref sig .tc := ⟨.hbm, 88, rfl⟩
abbrev main_cst_11 : Ref sig .tc := ⟨.hbm, 89, rfl⟩
abbrev main_v69 : Ref sig .tc := ⟨.hbm, 90, rfl⟩
abbrev main_v70 : Ref sig .tc := ⟨.hbm, 91, rfl⟩
abbrev main_cst_12 : Ref sig .tc := ⟨.hbm, 92, rfl⟩
abbrev main_v71 : Ref sig .tc := ⟨.hbm, 93, rfl⟩
abbrev main_v72 : Ref sig .tc := ⟨.hbm, 94, rfl⟩
abbrev main_cst_13 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_14 : Ref sig .tc := ⟨.hbm, 99, rfl⟩
abbrev main_v76 : Ref sig .tc := ⟨.hbm, 100, rfl⟩
abbrev main_cst_15 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_16 : Ref sig .tc := ⟨.hbm, 106, rfl⟩
abbrev main_v81 : Ref sig .tc := ⟨.hbm, 107, rfl⟩
abbrev main_cst_17 : Ref sig .tc := ⟨.hbm, 108, rfl⟩
abbrev main_v82 : Ref sig .tc := ⟨.hbm, 109, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  reducesTo_S512x1024_S512_d1 : S512x1024.ReducesTo [1] S512
  h_S_ : 0 < S_.numel
  transposes_S512x1024_S1024x512_1_0 : S512x1024.Transposes [1, 0] S1024x512
  bcast_S_S8192x512 : S_.BroadcastsInDim S8192x512 (![] : Fin 0 → Fin S8192x512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  reducesTo_S8192x512_S8192_d1 : S8192x512.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x512_0_1 : S8192x1.BroadcastsInDim S8192x512 (![0, 1] : Fin 2 → Fin S8192x512.rank)
  reducesTo_S8192x1024_S8192_d1 : S8192x1024.ReducesTo [1] S8192
  reducesTo_S8192x512_S512_d0 : S8192x512.ReducesTo [0] S512
  bcast_S_S512 : S_.BroadcastsInDim S512 (![] : Fin 0 → Fin S512.rank)
  reducesTo_S512_S_d0 : S512.ReducesTo [0] S_
  dot_S8192x1024_S1024x1024_S8192x1024_1_0_0_1_n_n_wf : DotDims.WF S8192x1024 S1024x1024 S8192x1024 [1] [0] [0] [1] [] []
  dot_S8192x1024_S1024x512_S8192x512_1_0_0_1_n_n_wf : DotDims.WF S8192x1024 S1024x512 S8192x512 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf

class Facts : Prop extends Facts₀ where

variable [Facts]
-- ==== Proof.BlocksIn.lean ====
/-
  What each operand block of the kernel holds at a grid point, entry by entry.

  The grid has 32 points; point `t` takes rows `256·t … 256·t + 255` of the batch and of the noise (windows 0 and 1) and
  writes the same rows of the three results (windows 10, 11, 12); the eight other operands (windows 2–9) are staged
  whole at every point. Row `p` of a block at point `t` is therefore row `256·t + p` of its array.
-/
import proofs.«149031_j76905684402362_1_alg».proof.Proof.Gen.KernelIdeal.Frame
import Idealize.ShloMosaic.Lib.ValueIdx

set_option maxRecDepth 16384

noncomputable section

namespace Cert.KernelBlocks

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-- The printed index maps, decided over the grid: the row windows move with the point, the others stay. -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_10.index t (0 : Fin 2) = t.val
    ∧ win0_10.index t (1 : Fin 2) = 0
    ∧ win0_11.index t (0 : Fin 2) = t.val
    ∧ win0_11.index t (1 : Fin 2) = 0
    ∧ win0_12.index t (0 : Fin 2) = t.val
    ∧ win0_12.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0 :=
  (by decide +kernel : ∀ t : Fin grid0.N, _)

/-- The batch row that row `p` of the block at point `t` is. -/
def row (t : Fin cfg0.N) (p : Fin 256) : Fin 8192 :=
  ⟨t.val * 256 + p.val, by have ht : t.val < 32 := lt_of_lt_of_eq t.isLt N_0; have := p.isLt; omega⟩

theorem row_val (t : Fin cfg0.N) (p : Fin 256) : (row t p).val = t.val * 256 + p.val := rfl

/-- Window 0: the batch's rows. -/
theorem blk0_at (c : Dev nD) (t : Fin cfg0.N) (p : Fin 256) (k : Fin 1024) :
    iblk m c 0 t (ix2 p k) = (m ((c : Thread nD τ).loc main_arg0)) (ix2 (row t p) k) := by
  obtain ⟨e0a, e0b, e1a, e1b, e10a, e10b, e11a, e11b, e12a, e12b, e2a, e2b, e3a, e3b, e4a, e4b, e5a, e5b, e6a, e6b, e7a, e7b, e8a, e8b, e9a, e9b⟩ := idx_facts t
  show V m c main_arg0 (((cfg0.win 0).blk t).view.emb (ix2 p k)) = _
  rw [V_main_arg0]
  refine congrArg _ (funext fun ax => Fin.ext ?_)
  match ax with
  | ⟨0, _⟩ => show win0_0.index t (0 : Fin 2) * 256 + 1 * p.val = t.val * 256 + p.val; rw [e0a]; omega
  | ⟨1, _⟩ => show win0_0.index t (1 : Fin 2) * 1024 + 1 * k.val = k.val; rw [e0b]; omega

/-- Window 1: the noise's rows. -/
theorem blk1_at (c : Dev nD) (t : Fin cfg0.N) (p : Fin 256) (k : Fin 1024) :
    iblk m c 1 t (ix2 p k) = (m ((c : Thread nD τ).loc main_arg7)) (ix2 (row t p) k) := by
  obtain ⟨e0a, e0b, e1a, e1b, e10a, e10b, e11a, e11b, e12a, e12b, e2a, e2b, e3a, e3b, e4a, e4b, e5a, e5b, e6a, e6b, e7a, e7b, e8a, e8b, e9a, e9b⟩ := idx_facts t
  show V m c main_arg7 (((cfg0.win 1).blk t).view.emb (ix2 p k)) = _
  rw [V_main_arg7]
  refine congrArg _ (funext fun ax => Fin.ext ?_)
  match ax with
  | ⟨0, _⟩ => show win0_1.index t (0 : Fin 2) * 256 + 1 * p.val = t.val * 256 + p.val; rw [e1a]; omega
  | ⟨1, _⟩ => show win0_1.index t (1 : Fin 2) * 1024 + 1 * k.val = k.val; rw [e1b]; omega

/-- Window 2 stages its whole array at every point. -/
theorem blk2_at (c : Dev nD) (t : Fin cfg0.N) (a : Fin 1024) (b : Fin 1024) :
    iblk m c 2 t (ix2 a b) = V m c main_v1 (ix2 a b) := by
  obtain ⟨e0a, e0b, e1a, e1b, e10a, e10b, e11a, e11b, e12a, e12b, e2a, e2b, e3a, e3b, e4a, e4b, e5a, e5b, e6a, e6b, e7a, e7b, e8a, e8b, e9a, e9b⟩ := idx_facts t
  show V m c main_v1 (((cfg0.win 2).blk t).view.emb (ix2 a b)) = _
  refine congrArg _ (funext fun ax => Fin.ext ?_)
  match ax with
  | ⟨0, _⟩ => show win0_2.index t (0 : Fin 2) * 1024 + 1 * a.val = a.val; rw [e2a]; omega
  | ⟨1, _⟩ => show win0_2.index t (1 : Fin 2) * 1024 + 1 * b.val = b.val; rw [e2b]; omega

/-- Window 3 stages its whole array at every point. -/
theorem blk3_at (c : Dev nD) (t : Fin cfg0.N) (a : Fin 1) (b : Fin 1024) :
    iblk m c 3 t (ix2 a b) = V m c main_v16 (ix2 a b) := by
  obtain ⟨e0a, e0b, e1a, e1b, e10a, e10b, e11a, e11b, e12a, e12b, e2a, e2b, e3a, e3b, e4a, e4b, e5a, e5b, e6a, e6b, e7a, e7b, e8a, e8b, e9a, e9b⟩ := idx_facts t
  show V m c main_v16 (((cfg0.win 3).blk t).view.emb (ix2 a b)) = _
  refine congrArg _ (funext fun ax => Fin.ext ?_)
  match ax with
  | ⟨0, _⟩ => show win0_3.index t (0 : Fin 2) * 1 + 1 * a.val = a.val; rw [e3a]; omega
  | ⟨1, _⟩ => show win0_3.index t (1 : Fin 2) * 1024 + 1 * b.val = b.val; rw [e3b]; omega

/-- Window 4 stages its whole array at every point. -/
theorem blk4_at (c : Dev nD) (t : Fin cfg0.N) (a : Fin 1024) (b : Fin 1024) :
    iblk m c 4 t (ix2 a b) = V m c main_v3 (ix2 a b) := by
  obtain ⟨e0a, e0b, e1a, e1b, e10a, e10b, e11a, e11b, e12a, e12b, e2a, e2b, e3a, e3b, e4a, e4b, e5a, e5b, e6a, e6b, e7a, e7b, e8a, e8b, e9a, e9b⟩ := idx_facts t
  show V m c main_v3 (((cfg0.win 4).blk t).view.emb (ix2 a b)) = _
  refine congrArg _ (funext fun ax => Fin.ext ?_)
  match ax with
  | ⟨0, _⟩ => show win0_4.index t (0 : Fin 2) * 1024 + 1 * a.val = a.val; rw [e4a]; omega
  | ⟨1, _⟩ => show win0_4.index t (1 : Fin 2) * 1024 + 1 * b.val = b.val; rw [e4b]; omega

/-- Window 5 stages its whole array at every point. -/
theorem blk5_at (c : Dev nD) (t : Fin cfg0.N) (a : Fin 1) (b : Fin 1024) :
    iblk m c 5 t (ix2 a b) = V m c main_v17 (ix2 a b) := by
  obtain ⟨e0a, e0b, e1a, e1b, e10a, e10b, e11a, e11b, e12a, e12b, e2a, e2b, e3a, e3b, e4a, e4b, e5a, e5b, e6a, e6b, e7a, e7b, e8a, e8b, e9a, e9b⟩ := idx_facts t
  show V m c main_v17 (((cfg0.win 5).blk t).view.emb (ix2 a b)) = _
  refine congrArg _ (funext fun ax => Fin.ext ?_)
  match ax with
  | ⟨0, _⟩ => show win0_5.index t (0 : Fin 2) * 1 + 1 * a.val = a.val; rw [e5a]; omega
  | ⟨1, _⟩ => show win0_5.index t (1 : Fin 2) * 1024 + 1 * b.val = b.val; rw [e5b]; omega

/-- Window 6 stages its whole array at every point. -/
theorem blk6_at (c : Dev nD) (t : Fin cfg0.N) (a : Fin 1024) (b : Fin 512) :
    iblk m c 6 t (ix2 a b) = V m c main_v13 (ix2 a b) := by
  obtain ⟨e0a, e0b, e1a, e1b, e10a, e10b, e11a, e11b, e12a, e12b, e2a, e2b, e3a, e3b, e4a, e4b, e5a, e5b, e6a, e6b, e7a, e7b, e8a, e8b, e9a, e9b⟩ := idx_facts t
  show V m c main_v13 (((cfg0.win 6).blk t).view.emb (ix2 a b)) = _
  refine congrArg _ (funext fun ax => Fin.ext ?_)
  match ax with
  | ⟨0, _⟩ => show win0_6.index t (0 : Fin 2) * 1024 + 1 * a.val = a.val; rw [e6a]; omega
  | ⟨1, _⟩ => show win0_6.index t (1 : Fin 2) * 512 + 1 * b.val = b.val; rw [e6b]; omega

/-- Window 7 stages its whole array at every point. -/
theorem blk7_at (c : Dev nD) (t : Fin cfg0.N) (a : Fin 1024) (b : Fin 512) :
    iblk m c 7 t (ix2 a b) = V m c main_v15 (ix2 a b) := by
  obtain ⟨e0a, e0b, e1a, e1b, e10a, e10b, e11a, e11b, e12a, e12b, e2a, e2b, e3a, e3b, e4a, e4b, e5a, e5b, e6a, e6b, e7a, e7b, e8a, e8b, e9a, e9b⟩ := idx_facts t
  show V m c main_v15 (((cfg0.win 7).blk t).view.emb (ix2 a b)) = _
  refine congrArg _ (funext fun ax => Fin.ext ?_)
  match ax with
  | ⟨0, _⟩ => show win0_7.index t (0 : Fin 2) * 1024 + 1 * a.val = a.val; rw [e7a]; omega
  | ⟨1, _⟩ => show win0_7.index t (1 : Fin 2) * 512 + 1 * b.val = b.val; rw [e7b]; omega

/-- Window 8 stages its whole array at every point. -/
theorem blk8_at (c : Dev nD) (t : Fin cfg0.N) (a : Fin 1) (b : Fin 512) :
    iblk m c 8 t (ix2 a b) = V m c main_v9 (ix2 a b) := by
  obtain ⟨e0a, e0b, e1a, e1b, e10a, e10b, e11a, e11b, e12a, e12b, e2a, e2b, e3a, e3b, e4a, e4b, e5a, e5b, e6a, e6b, e7a, e7b, e8a, e8b, e9a, e9b⟩ := idx_facts t
  show V m c main_v9 (((cfg0.win 8).blk t).view.emb (ix2 a b)) = _
  refine congrArg _ (funext fun ax => Fin.ext ?_)
  match ax with
  | ⟨0, _⟩ => show win0_8.index t (0 : Fin 2) * 1 + 1 * a.val = a.val; rw [e8a]; omega
  | ⟨1, _⟩ => show win0_8.index t (1 : Fin 2) * 512 + 1 * b.val = b.val; rw [e8b]; omega

/-- Window 9 stages its whole array at every point. -/
theorem blk9_at (c : Dev nD) (t : Fin cfg0.N) (a : Fin 1) (b : Fin 512) :
    iblk m c 9 t (ix2 a b) = V m c main_v11 (ix2 a b) := by
  obtain ⟨e0a, e0b, e1a, e1b, e10a, e10b, e11a, e11b, e12a, e12b, e2a, e2b, e3a, e3b, e4a, e4b, e5a, e5b, e6a, e6b, e7a, e7b, e8a, e8b, e9a, e9b⟩ := idx_facts t
  show V m c main_v11 (((cfg0.win 9).blk t).view.emb (ix2 a b)) = _
  refine congrArg _ (funext fun ax => Fin.ext ?_)
  match ax with
  | ⟨0, _⟩ => show win0_9.index t (0 : Fin 2) * 1 + 1 * a.val = a.val; rw [e9a]; omega
  | ⟨1, _⟩ => show win0_9.index t (1 : Fin 2) * 512 + 1 * b.val = b.val; rw [e9b]; omega

end Cert.KernelBlocks

end
-- ==== Proof.Spec.lean ====
/-
  The mathematics both programs compute, row by row, on the extended reals.

  Inputs: a batch `X` of 8192 rows of 1024 features, two affine maps `(Wm, bm)` and `(Wl, bl)` (weights stored
  output-major: `W (q, k)` multiplies feature `k` into output `q`), a codebook of 512 centres `C` with log-variances `L`,
  and a noise batch `N`.

  For one row `r`:
  * `mu r q = Σ_k X(r,k)·Wm(q,k) + bm q` and `ls r q = Σ_k X(r,k)·Wl(q,k) + bl q` (mean and log-variance of the sample);
  * `zs r q = mu r q + exp(½·ls r q)·N(r,q)` (the reparameterised sample);
  * for a centre `c`: `isg c h = exp(−L(c,h))` (inverse variance), `mi c h = C(c,h)·isg c h`,
    `c2 c = Σ_h C(c,h)·mi c h`, `sl c = Σ_h L(c,h)`;
  * the expanded Mahalanobis form of a vector `v` against centre `c`:
    `mah v c = Σ_h v_h²·isg c h − 2·Σ_h v_h·mi c h + c2 c`;
  * the assignment `att r` is the softmax over centres of `−mah (zs r)`, computed stably: subtract the row maximum `mx r`,
    exponentiate, divide by the row's sum `se r`;
  * `avg r c = (sl c + Σ_h exp(ls r h)·isg c h + mah (mu r) c) / 1024`;
  * `loss r = ½·Σ_c att r c·avg r c − ½·(Σ_h (1 + ls r h)) / 1024`.

  Float sums carry their initial value (the zero word) in front, as both programs state them; literals stay as their
  words, the same on both sides.
-/
import Idealize.ShloMosaic.PureOps.Ideal
import Idealize.ShloMosaic.Lib.ValueIdx

noncomputable section

namespace Cert.Spec

open Idealize.ShloMosaic Idealize.ShloMosaic.ValueIdx
open scoped BigOperators

/-- The shapes of the arguments. -/
abbrev SX : Shape := ⟨2, ![8192, 1024]⟩
abbrev SW : Shape := ⟨2, ![1024, 1024]⟩
abbrev Sb : Shape := ⟨1, ![1024]⟩
abbrev SC : Shape := ⟨2, ![512, 1024]⟩

/-- The literals, as their words. -/
abbrev zero : EReal := Ideal.ofBits .f32 0x00000000#32
abbrev half : EReal := Ideal.ofBits .f32 0x3F000000#32
abbrev one : EReal := Ideal.ofBits .f32 0x3F800000#32
abbrev two : EReal := Ideal.ofBits .f32 0x40000000#32
abbrev k1024 : EReal := Ideal.ofBits .f32 0x44800000#32
abbrev ninf : EReal := Ideal.ofBits .f32 0xFF800000#32

variable (X : SX.Idx → EReal) (Wm : SW.Idx → EReal) (bm : Sb.Idx → EReal) (Wl : SW.Idx → EReal) (bl : Sb.Idx → EReal)
  (C L : SC.Idx → EReal) (N : SX.Idx → EReal)

/-- An affine map of row `r`: output `q`. -/
def aff (W : SW.Idx → EReal) (b : Sb.Idx → EReal) (r : Fin 8192) (q : Fin 1024) : EReal :=
  (∑ k : Fin 1024, X (ix2 r k) * W (ix2 q k)) + b (ix1 q)

/-- The reparameterised sample. -/
def zs (r : Fin 8192) (q : Fin 1024) : EReal :=
  aff X Wm bm r q + Ideal.exp (half * aff X Wl bl r q) * N (ix2 r q)

/-- Inverse variance of centre `c`, feature `h`. -/
def isg (c : Fin 512) (h : Fin 1024) : EReal := Ideal.exp (-(L (ix2 c h)))
/-- Centre over variance. -/
def mi (c : Fin 512) (h : Fin 1024) : EReal := C (ix2 c h) * isg L c h
/-- The centre's own quadratic term. -/
def c2 (c : Fin 512) : EReal := zero + ∑ h : Fin 1024, C (ix2 c h) * mi C L c h
/-- The centre's summed log-variance. -/
def sl (c : Fin 512) : EReal := zero + ∑ h : Fin 1024, L (ix2 c h)

/-- The expanded Mahalanobis form of `v` against centre `c`. -/
def mah (v : Fin 1024 → EReal) (c : Fin 512) : EReal :=
  ((∑ h : Fin 1024, (v h * v h) * isg L c h) - two * (∑ h : Fin 1024, v h * mi C L c h)) + c2 C L c

/-- The softmax's logits: minus the form of the sample. -/
def lg (r : Fin 8192) (c : Fin 512) : EReal := -(mah C L (zs X Wm bm Wl bl N r) c)
/-- The row's largest logit (guarded by −∞ as both programs do). -/
def mx (r : Fin 8192) : EReal :=
  max ninf ((Finset.univ : Finset (Fin 512)).fold max ninf (fun c => lg X Wm bm Wl bl C L N r c))
/-- The shifted exponentials, -/
def ex (r : Fin 8192) (c : Fin 512) : EReal := Ideal.exp (lg X Wm bm Wl bl C L N r c - mx X Wm bm Wl bl C L N r)
/-- their sum, -/
def se (r : Fin 8192) : EReal := zero + ∑ c : Fin 512, ex X Wm bm Wl bl C L N r c
/-- and the assignment of row `r` to centre `c`. -/
def att (r : Fin 8192) (c : Fin 512) : EReal := Ideal.div (ex X Wm bm Wl bl C L N r c) (se X Wm bm Wl bl C L N r)

/-- The per-centre average term. -/
def avg (r : Fin 8192) (c : Fin 512) : EReal :=
  Ideal.div ((sl L c + ∑ h : Fin 1024, Ideal.exp (aff X Wl bl r h) * isg L c h) + mah C L (aff X Wm bm r) c) k1024

/-- The row's loss. -/
def loss (r : Fin 8192) : EReal :=
  half * (zero + ∑ c : Fin 512, att X Wm bm Wl bl C L N r c * avg X Wm bm Wl bl C L r c)
    - half * Ideal.div (zero + ∑ h : Fin 1024, (one + aff X Wl bl r h)) k1024

end Cert.Spec

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.BodyAffine.lean ====
/-
  The kernel body's first half, read at an index on the extended reals.

  At one grid point the body holds a block of 256 rows of the batch. Row `p` of the block is row `r` of the batch (the
  hypotheses `hx`, `hn` say so entry by entry); the weight operands arrive transposed (`hw : x2 (k, q) = W (q, k)`), the biases
  as one row. Then the two affine maps are matrix products into a zero accumulator plus a broadcast row, i.e. the sums
  `Spec.aff`, and the sample is `Spec.zs`; a change of float format is the identity.
-/
import proofs.«149031_j76905684402362_1_alg».proof.Proof.Gen.KernelIdeal.Skeleton
import proofs.«149031_j76905684402362_1_alg».proof.Proof.Spec
import proofs.«149031_j76905684402362_1_alg».proof.Proof.LibMatDot
import Idealize.ShloMosaic.Lib.ValueLayout
import Idealize.ShloMosaic.Lib.Pipeline.Value

noncomputable section

namespace Cert.KernelBody

open Cert.KernelIdeal Cert.KernelIdeal.Gen Idealize.ShloMosaic Idealize.ShloMosaic.ValueIdx Cert.Spec
open scoped BigOperators

/-- A product of a block of rows with a transposed weight matrix, into the zero accumulator, plus a broadcast bias row:
    the affine map of the batch's row. -/
theorem affine_at (l : FVec Ideal S256x1024 .bf16) (w : FVec Ideal S1024x1024 .bf16) (brow : FVec Ideal S1x1024 .f32)
    (X : SX.Idx → EReal) (W : SW.Idx → EReal) (b : Sb.Idx → EReal) (r : Fin 8192) (p : Fin 256) (q : Fin 1024)
    (hx : ∀ k : Fin 1024, l (ix2 p k) = X (ix2 r k)) (hw : ∀ k q : Fin 1024, w (ix2 k q) = W (ix2 q k))
    (hb : ∀ q : Fin 1024, brow (ix2 (0 : Fin 1) q) = b (ix1 q)) :
    addf (matmul dot_S256x1024_S1024x1024_S256x1024_1_0_0_1_n_n none l w (constant S256x1024 .f32 0x00000000#32))
        (broadcastTo S256x1024 brow broadcasts_S1x1024_S256x1024) (ix2 p q)
      = aff X W b r q := by
  rw [addf_apply, broadcastTo_1b_ab_apply, hb]
  refine congrArg (· + b (ix1 q)) ?_
  refine (Cert.Lib.matmul_plain_zero_apply (φ₁ := .bf16) (φ₂ := .bf16)
    (wf := dot_S256x1024_S1024x1024_S256x1024_1_0_0_1_n_n.wf) none l w p q).trans ?_
  exact Finset.sum_congr rfl fun k _ => by rw [hx, hw]

/-- The mean of the sample, at row `p` of the block. -/
theorem pay7_at (x0 : Vec Ideal S256x1024 .f32) (x2 : Vec Ideal S1024x1024 .bf16) (x3 : Vec Ideal S1x1024 .f32)
    (X : SX.Idx → EReal) (W : SW.Idx → EReal) (b : Sb.Idx → EReal) (r : Fin 8192) (p : Fin 256) (q : Fin 1024)
    (hx : ∀ k : Fin 1024, x0 (ix2 p k) = X (ix2 r k)) (hw : ∀ k q : Fin 1024, x2 (ix2 k q) = W (ix2 q k))
    (hb : ∀ q : Fin 1024, x3 (ix2 (0 : Fin 1) q) = b (ix1 q)) :
    k0_pay7 (F := Ideal) x0 x2 x3 (ix2 p q) = aff X W b r q := by
  unfold k0_pay7 k0_pay6
  rw [shapeCast_self, shapeCast_self]
  exact affine_at _ x2 x3 X W b r p q (fun k => hx k) hw hb

/-- Its log-variance: the same map with the other weights. -/
theorem pay8_at (x0 : Vec Ideal S256x1024 .f32) (x4 : Vec Ideal S1024x1024 .bf16) (x5 : Vec Ideal S1x1024 .f32)
    (X : SX.Idx → EReal) (W : SW.Idx → EReal) (b : Sb.Idx → EReal) (r : Fin 8192) (p : Fin 256) (q : Fin 1024)
    (hx : ∀ k : Fin 1024, x0 (ix2 p k) = X (ix2 r k)) (hw : ∀ k q : Fin 1024, x4 (ix2 k q) = W (ix2 q k))
    (hb : ∀ q : Fin 1024, x5 (ix2 (0 : Fin 1) q) = b (ix1 q)) :
    k0_pay8 (F := Ideal) x0 x4 x5 (ix2 p q) = aff X W b r q := by
  unfold k0_pay8 k0_pay6
  rw [shapeCast_self, shapeCast_self]
  exact affine_at _ x4 x5 X W b r p q (fun k => hx k) hw hb

/-- The sample, at row `p` of the block. -/
theorem pay9_at (x0 x1 : Vec Ideal S256x1024 .f32) (x2 : Vec Ideal S1024x1024 .bf16) (x3 : Vec Ideal S1x1024 .f32)
    (x4 : Vec Ideal S1024x1024 .bf16) (x5 : Vec Ideal S1x1024 .f32)
    (X : SX.Idx → EReal) (Wm : SW.Idx → EReal) (bm : Sb.Idx → EReal) (Wl : SW.Idx → EReal) (bl : Sb.Idx → EReal)
    (N : SX.Idx → EReal) (r : Fin 8192) (p : Fin 256) (q : Fin 1024)
    (hx : ∀ k : Fin 1024, x0 (ix2 p k) = X (ix2 r k)) (hn : ∀ k : Fin 1024, x1 (ix2 p k) = N (ix2 r k))
    (hwm : ∀ k q : Fin 1024, x2 (ix2 k q) = Wm (ix2 q k)) (hbm : ∀ q : Fin 1024, x3 (ix2 (0 : Fin 1) q) = bm (ix1 q))
    (hwl : ∀ k q : Fin 1024, x4 (ix2 k q) = Wl (ix2 q k)) (hbl : ∀ q : Fin 1024, x5 (ix2 (0 : Fin 1) q) = bl (ix1 q)) :
    k0_pay9 (F := Ideal) x0 x1 x2 x3 x4 x5 (ix2 p q) = zs X Wm bm Wl bl N r q := by
  unfold k0_pay9 zs
  rw [addf_apply, mulf_apply, pay7_at x0 x2 x3 X Wm bm r p q hx hwm hbm, hn]
  refine congrArg (fun t => aff X Wm bm r q + t * N (ix2 r q)) ?_
  show Ideal.exp (_ * k0_pay8 (F := Ideal) x0 x4 x5 (ix2 p q)) = _
  rw [pay8_at x0 x4 x5 X Wl bl r p q hx hwl hbl]
  rfl

/-- The sample in the narrower format is the sample. -/
theorem pay10_eq (x0 x1 : Vec Ideal S256x1024 .f32) (x2 : Vec Ideal S1024x1024 .bf16) (x3 : Vec Ideal S1x1024 .f32)
    (x4 : Vec Ideal S1024x1024 .bf16) (x5 : Vec Ideal S1x1024 .f32) (i : S256x1024.Idx) :
    k0_pay10 (F := Ideal) x0 x1 x2 x3 x4 x5 i = k0_pay9 (F := Ideal) x0 x1 x2 x3 x4 x5 i := rfl

/-- The squared sample against the inverse variances: the first sum of the expanded form. -/
theorem pay11_at (x0 x1 : Vec Ideal S256x1024 .f32) (x2 : Vec Ideal S1024x1024 .bf16) (x3 : Vec Ideal S1x1024 .f32)
    (x4 : Vec Ideal S1024x1024 .bf16) (x5 : Vec Ideal S1x1024 .f32) (x6 : Vec Ideal S1024x512 .bf16)
    (X : SX.Idx → EReal) (Wm : SW.Idx → EReal) (bm : Sb.Idx → EReal) (Wl : SW.Idx → EReal) (bl : Sb.Idx → EReal)
    (L : SC.Idx → EReal) (N : SX.Idx → EReal) (r : Fin 8192) (p : Fin 256) (c : Fin 512)
    (hx : ∀ k : Fin 1024, x0 (ix2 p k) = X (ix2 r k)) (hn : ∀ k : Fin 1024, x1 (ix2 p k) = N (ix2 r k))
    (hwm : ∀ k q : Fin 1024, x2 (ix2 k q) = Wm (ix2 q k)) (hbm : ∀ q : Fin 1024, x3 (ix2 (0 : Fin 1) q) = bm (ix1 q))
    (hwl : ∀ k q : Fin 1024, x4 (ix2 k q) = Wl (ix2 q k)) (hbl : ∀ q : Fin 1024, x5 (ix2 (0 : Fin 1) q) = bl (ix1 q))
    (h6 : ∀ (h : Fin 1024) (c : Fin 512), x6 (ix2 h c) = isg L c h) :
    k0_pay11 (F := Ideal) x0 x1 x2 x3 x4 x5 x6 (ix2 p c)
      = ∑ h : Fin 1024, (zs X Wm bm Wl bl N r h * zs X Wm bm Wl bl N r h) * isg L c h := by
  unfold k0_pay11 k0_pay2
  rw [shapeCast_self]
  refine (Cert.Lib.matmul_plain_zero_apply (φ₁ := .bf16) (φ₂ := .bf16)
    (wf := dot_S256x1024_S1024x512_S256x512_1_0_0_1_n_n.wf) none _ x6 p c).trans ?_
  refine Finset.sum_congr rfl fun h _ => ?_
  rw [h6, truncf_apply, mulf_apply, pay9_at x0 x1 x2 x3 x4 x5 X Wm bm Wl bl N r p h hx hn hwm hbm hwl hbl]

end Cert.KernelBody

end
-- ==== Proof.LibRowMax.lean ====
/-
  A row's maximum read at an index.

  A `vector.multi_reduction <maximumf>` of an `[R, K]` array over its second axis, read on the extended reals at row
  `p`, is the fold of `max` from the accumulator's value over the `K` entries `src (p, k)` of that row: the reduced index
  `(p)` with the coordinate `k` put back on the reduced axis is `(p, k)`.
-/
import Idealize.ShloMosaic.PureOps.Ideal.Laws
import Idealize.ShloMosaic.Lib.ValueIdx

noncomputable section

namespace Cert.Lib

open Idealize.ShloMosaic Idealize.ShloMosaic.ValueIdx

variable {R K : ℕ}

/-- The reduced index `(p)` with coordinate `k` inserted on axis 1 is `(p, k)`. -/
theorem lift_lastAxis2 (h : (⟨2, ![R, K]⟩ : Shape).Reduces [1] (⟨1, ![R]⟩ : Shape)) (p : Fin R)
    (k : Fin ((⟨2, ![R, K]⟩ : Shape).size 1)) : h.lift (ix1 p) k = ix2 p (⟨k.val, k.isLt⟩ : Fin K) := by
  funext c; apply Fin.ext
  fin_cases c <;> rfl

/-- A float maximum over the second axis of an `[R, K]` array, at row `p`: the fold of `max` over that row. -/
theorem multiReduction_maximumf_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.maximumf.neutral φ hφ) (p : Fin R) :
    multiReduction .maximumf [1] (⟨1, ![R]⟩ : Shape) src acc h hφ hacc (ix1 p)
      = (Finset.univ : Finset (Fin K)).fold max (Ideal.ofBits φ acc) (fun k => src (ix2 p k)) := by
  refine (Ideal.multiReduction_maximumf_single src acc h hφ hacc (ix1 p)).trans ?_
  have hf : (src ∘ h.lift (ix1 p)) = fun k : Fin K => src (ix2 p k) :=
    funext fun k => congrArg src (lift_lastAxis2 h p k)
  exact congrArg (fun f => Finset.fold max (Ideal.ofBits φ acc) f (Finset.univ : Finset (Fin K))) hf

end Cert.Lib

end
-- ==== Proof.LibRowSum.lean ====
/-
  A row's sum read at an index.

  A `vector.multi_reduction <add>` of an `[R, K]` array over its second axis, read on the extended reals at row `p`, is
  the sum of the `K` entries `src (p, k)` of that row (the accumulator is the additive neutral word, so nothing is added
  in front); the host's one-operand `reduce` with an add body over the same axis is its initial value plus that sum.
-/
import Idealize.ShloMosaic.PureOps.Ideal.Laws
import Idealize.ShloMosaic.Lib.ValueIdx
import proofs.«149031_j76905684402362_1_alg».proof.Proof.LibRowMax

noncomputable section

namespace Cert.Lib

open Idealize.ShloMosaic Idealize.ShloMosaic.ValueIdx
open scoped BigOperators

variable {R K : ℕ}

/-- A float sum over the second axis of an `[R, K]` array, at row `p`: the sum over that row. -/
theorem multiReduction_add_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin K, src (ix2 p k) := by
  refine (Ideal.multiReduction_add_single src acc h hφ hacc (ix1 p)).trans ?_
  exact Finset.sum_congr rfl fun k _ => congrArg src (lift_lastAxis2 h p k)

/-- The host's float sum over the second axis of an `[R, K]` array, at row `p`: the initial value plus the sum over that row. -/
theorem hostReduceAdd_rows {φ : FTy} {u : Shape} (x : FVec Ideal ⟨2, ![R, K]⟩ φ) (init : u.Idx → Ideal φ)
    (h' : (⟨2, ![R, K]⟩ : Shape).ReducesTo [1] (⟨1, ![R]⟩ : Shape)) (h : (⟨2, ![R, K]⟩ : Shape).Reduces [1] (⟨1, ![R]⟩ : Shape))
    (hu : 0 < u.numel) (p : Fin R) :
    Host.reduceAdd x init h' hu (ix1 p) = init (Shape.Idx.first hu) + ∑ k : Fin K, x (ix2 p k) := by
  unfold Host.reduceAdd
  rw [Ideal.hostReduceAdd_def, Ideal.hostReduceAdd_single h' h]
  exact congrArg (_ + ·) (Finset.sum_congr rfl fun k _ => congrArg x (lift_lastAxis2 h p k))

end Cert.Lib

end
-- ==== Proof.LibColumn.lean ====
/-
  A column vector's layout operations read at an index.

  A vector of `a` entries reshaped to a column `[a, 1]` reads, at `(i, 0)`, the vector's entry `i`; a column `[a, 1]`
  broadcast along its unit axis to `[a, b]` reads, at `(p, c)`, the column's entry `p`, whatever the column `c`. These
  are the column counterparts of the library's row forms (a vector as one row, one row broadcast over many).
-/
import Idealize.ShloMosaic.Lib.ValueIdx
import Idealize.ShloMosaic.Lib.Pipeline.Value

noncomputable section

namespace Cert.Lib

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.BodySoftmax.lean ====
/-
  The kernel body's softmax over centres, read at an index on the extended reals.

  The logits of a block are minus the expanded Mahalanobis form of the sample: the squared-sample product, minus twice
  the product of the sample with the centres over their variances, plus the centres' own term, negated as `0 − ·`.
  The softmax is the stable one: per row the maximum `M` of the logits (guarded by −∞), the exponentials of the
  shifted logits, and their quotient by the row's sum. Row `p` of the block depends on row `p` of the logits only.
-/
import proofs.«149031_j76905684402362_1_alg».proof.Proof.BodyAffine
import proofs.«149031_j76905684402362_1_alg».proof.Proof.LibRowMax
import proofs.«149031_j76905684402362_1_alg».proof.Proof.LibRowSum
import proofs.«149031_j76905684402362_1_alg».proof.Proof.LibColumn

noncomputable section

namespace Cert.KernelBody

open Cert.KernelIdeal Cert.KernelIdeal.Gen Idealize.ShloMosaic Idealize.ShloMosaic.ValueIdx Cert.Spec
open scoped BigOperators

/-- The zero word in front of a sum adds nothing. -/
theorem zero_add' (s : EReal) : Spec.zero + s = s := by
  show Ideal.ofBits .f32 0x00000000#32 + s = s
  rw [Ideal.ofBits_zero_f32, zero_add]

/-- `0 − x` is `−x`. -/
theorem zero_sub' (s : EReal) : Spec.zero - s = -s := by
  show Ideal.ofBits .f32 0x00000000#32 - s = -s
  rw [Ideal.ofBits_zero_f32, zero_sub]

/-- A vector of 256 entries laid as a column and spread over 512 columns reads, at `(p, c)`, its entry `p`. -/
theorem column_spread (v : FVec Ideal S256 .f32) (p : Fin 256) (c : Fin 512) :
    broadcastTo S256x512 (shapeCast S256x1 v shapeCasts_S256_S256x1) broadcasts_S256x1_S256x512 (ix2 p c) = v (ix1 p) := by
  rw [Cert.Lib.broadcastTo_a1_ab_apply, Cert.Lib.shapeCast_a_a1_apply]

/-! ## The stable softmax of a block of logits -/

/-- The guarded row maxima of a block of logits. -/
def rowMaxV (l : FVec Ideal S256x512 .f32) : FVec Ideal S256 .f32 :=
  maximumf (broadcast S256 (Scalar.ofBits .f32 0xFF800000#32))
    (multiReduction .maximumf [1] S256 l 0xFF800000#32 reduces_S256x512_S256 (.inl rfl) rfl)

/-- The exponentials of the logits shifted by their row's maximum. -/
def shiftExpV (l : FVec Ideal S256x512 .f32) : FVec Ideal S256x512 .f32 :=
  exp (subf l (broadcastTo S256x512 (shapeCast S256x1 (rowMaxV l) shapeCasts_S256_S256x1) broadcasts_S256x1_S256x512))

/-- The softmax: the shifted exponentials over their row sums. -/
def softmaxV (l : FVec Ideal S256x512 .f32) : FVec Ideal S256x512 .f32 :=
  divf (shiftExpV l) (broadcastTo S256x512 (shapeCast S256x1
    (multiReduction .add [1] S256 (shiftExpV l) 0x00000000#32 reduces_S256x512_S256 (.inl rfl) rfl) shapeCasts_S256_S256x1)
    broadcasts_S256x1_S256x512)

/-- The guarded maximum of a row of logits `f`. -/
def rowMax (f : Fin 512 → EReal) : EReal := max ninf ((Finset.univ : Finset (Fin 512)).fold max ninf f)

theorem rowMaxV_at (l : FVec Ideal S256x512 .f32) (p : Fin 256) (f : Fin 512 → EReal)
    (hl : ∀ c : Fin 512, l (ix2 p c) = f c) : rowMaxV l (ix1 p) = rowMax f := by
  have hf : (fun k : Fin 512 => l (ix2 p k)) = f := funext hl
  have h := Cert.Lib.multiReduction_maximumf_rows l 0xFF800000#32 reduces_S256x512_S256 (.inl rfl) rfl p
  rw [hf] at h
  exact congrArg (max (Ideal.ofBits .f32 0xFF800000#32)) h

theorem shiftExpV_at (l : FVec Ideal S256x512 .f32) (p : Fin 256) (c : Fin 512) (f : Fin 512 → EReal)
    (hl : ∀ c : Fin 512, l (ix2 p c) = f c) : shiftExpV l (ix2 p c) = Ideal.exp (f c - rowMax f) := by
  show Ideal.exp (l (ix2 p c) - broadcastTo S256x512 (shapeCast S256x1 (rowMaxV l) shapeCasts_S256_S256x1)
    broadcasts_S256x1_S256x512 (ix2 p c)) = _
  rw [column_spread, rowMaxV_at l p f hl, hl]

theorem softmaxV_at (l : FVec Ideal S256x512 .f32) (p : Fin 256) (c : Fin 512) (f : Fin 512 → EReal)
    (hl : ∀ c : Fin 512, l (ix2 p c) = f c) :
    softmaxV l (ix2 p c)
      = Ideal.div (Ideal.exp (f c - rowMax f)) (∑ c' : Fin 512, Ideal.exp (f c' - rowMax f)) := by
  show Ideal.div (shiftExpV l (ix2 p c)) (broadcastTo S256x512 (shapeCast S256x1
    (multiReduction .add [1] S256 (shiftExpV l) 0x00000000#32 reduces_S256x512_S256 (.inl rfl) rfl) shapeCasts_S256_S256x1)
    broadcasts_S256x1_S256x512 (ix2 p c)) = _
  rw [column_spread, shiftExpV_at l p c f hl]
  exact congrArg (Ideal.div _)
    ((Cert.Lib.multiReduction_add_rows (shiftExpV l) 0x00000000#32 reduces_S256x512_S256 (.inl rfl) rfl p).trans
      (Finset.sum_congr rfl fun c' _ => shiftExpV_at l p c' f hl))

/-! ## The logits -/

/-- The expanded Mahalanobis form of a block of vectors, from its two products and the centres' term. -/
def mahV (v13 : FVec Ideal S1024x512 .bf16) (v15 : FVec Ideal S1x512 .f32) (vb : FVec Ideal S256x1024 .bf16)
    (sq : FVec Ideal S256x512 .f32) (acc : FVec Ideal S256x512 .f32) : FVec Ideal S256x512 .f32 :=
  addf (subf sq (mulf (broadcast S256x512 (Scalar.ofBits .f32 0x40000000#32))
      (matmul dot_S256x1024_S1024x512_S256x512_1_0_0_1_n_n none vb v13 acc)))
    (broadcastTo S256x512 v15 broadcasts_S1x512_S256x512)

theorem mahV_at (v13 : FVec Ideal S1024x512 .bf16) (v15 : FVec Ideal S1x512 .f32) (vb : FVec Ideal S256x1024 .bf16)
    (sq : FVec Ideal S256x512 .f32) (C L : SC.Idx → EReal) (v : Fin 1024 → EReal) (p : Fin 256) (c : Fin 512)
    (h13 : ∀ (h : Fin 1024) (c : Fin 512), v13 (ix2 h c) = mi C L c h)
    (h15 : ∀ c : Fin 512, v15 (ix2 (0 : Fin 1) c) = c2 C L c)
    (hvb : ∀ h : Fin 1024, vb (ix2 p h) = v h)
    (hsq : ∀ c : Fin 512, sq (ix2 p c) = ∑ h : Fin 1024, (v h * v h) * isg L c h) :
    mahV v13 v15 vb sq (constant S256x512 .f32 0x00000000#32) (ix2 p c) = mah C L v c := by
  have hm : matmul dot_S256x1024_S1024x512_S256x512_1_0_0_1_n_n none vb v13 (constant S256x512 .f32 0x00000000#32) (ix2 p c)
      = ∑ h : Fin 1024, v h * mi C L c h :=
    (Cert.Lib.matmul_plain_zero_apply (wf := dot_S256x1024_S1024x512_S256x512_1_0_0_1_n_n.wf) none vb v13 p c).trans
      (Finset.sum_congr rfl fun h _ => by rw [hvb, h13])
  show (sq (ix2 p c) - Ideal.ofBits .f32 0x40000000#32
      * matmul dot_S256x1024_S1024x512_S256x512_1_0_0_1_n_n none vb v13 (constant S256x512 .f32 0x00000000#32) (ix2 p c))
    + broadcastTo S256x512 v15 broadcasts_S1x512_S256x512 (ix2 p c) = _
  rw [hm, hsq, broadcastTo_1b_ab_apply, h15]
  rfl

/-- The assignment of a block, from the operands the body holds: the softmax of the negated form of the sample. -/
theorem pay12_eq (v13 : FVec Ideal S1024x512 .bf16) (v15 : FVec Ideal S1x512 .f32) (v30 : FVec Ideal S256x1024 .bf16)
    (v33 : FVec Ideal S256x512 .f32) (acc : FVec Ideal S256x512 .f32) :
    k0_pay12 (F := Ideal) v13 v15 v30 v33 acc
      = softmaxV (subf (broadcast S256x512 (Scalar.ofBits .f32 0x00000000#32)) (mahV v13 v15 v30 v33 acc)) := rfl

theorem pay12_at (v13 : FVec Ideal S1024x512 .bf16) (v15 : FVec Ideal S1x512 .f32) (v30 : FVec Ideal S256x1024 .bf16)
    (v33 : FVec Ideal S256x512 .f32)
    (X : SX.Idx → EReal) (Wm : SW.Idx → EReal) (bm : Sb.Idx → EReal) (Wl : SW.Idx → EReal) (bl : Sb.Idx → EReal)
    (C L : SC.Idx → EReal) (N : SX.Idx → EReal) (r : Fin 8192) (p : Fin 256) (c : Fin 512)
    (h13 : ∀ (h : Fin 1024) (c : Fin 512), v13 (ix2 h c) = mi C L c h)
    (h15 : ∀ c : Fin 512, v15 (ix2 (0 : Fin 1) c) = c2 C L c)
    (h30 : ∀ h : Fin 1024, v30 (ix2 p h) = zs X Wm bm Wl bl N r h)
    (h33 : ∀ c : Fin 512, v33 (ix2 p c)
      = ∑ h : Fin 1024, (zs X Wm bm Wl bl N r h * zs X Wm bm Wl bl N r h) * isg L c h) :
    k0_pay12 (F := Ideal) v13 v15 v30 v33 (constant S256x512 .f32 0x00000000#32) (ix2 p c)
      = att X Wm bm Wl bl C L N r c := by
  have hl : ∀ c' : Fin 512,
      (subf (broadcast S256x512 (Scalar.ofBits .f32 0x00000000#32))
        (mahV v13 v15 v30 v33 (constant S256x512 .f32 0x00000000#32)) : FVec Ideal S256x512 .f32) (ix2 p c')
        = lg X Wm bm Wl bl C L N r c' := fun c' => by
    show Spec.zero - mahV v13 v15 v30 v33 (constant S256x512 .f32 0x00000000#32) (ix2 p c') = _
    rw [mahV_at v13 v15 v30 v33 C L (zs X Wm bm Wl bl N r) p c' h13 h15 h30 h33, zero_sub']
    rfl
  rw [pay12_eq, softmaxV_at _ p c _ hl]
  unfold att se ex mx
  rw [zero_add']
  rfl

end Cert.KernelBody

end
-- ==== Proof.BodyLoss.lean ====
/-
  The kernel body's loss column, read at an index on the extended reals.

  Per row: the assignment times the per-centre average term, summed over centres, halved; minus half the mean of
  `1 + log-variance` over features. The average term adds the centres' summed log-variances, the product of the
  exponentiated log-variance with the inverse variances, and the expanded form of the mean, and divides by 1024.
-/
import proofs.«149031_j76905684402362_1_alg».proof.Proof.BodySoftmax

noncomputable section

namespace Cert.KernelBody

open Cert.KernelIdeal Cert.KernelIdeal.Gen Idealize.ShloMosaic Idealize.ShloMosaic.ValueIdx Cert.Spec
open scoped BigOperators

/-- The per-centre average term of a block. -/
def avgV (v11 v13 : FVec Ideal S1024x512 .bf16) (v15 v17 : FVec Ideal S1x512 .f32) (v21 v24 : FVec Ideal S256x1024 .f32) :
    FVec Ideal S256x512 .f32 :=
  divf (addf (addf (broadcastTo S256x512 v17 broadcasts_S1x512_S256x512)
        (matmul dot_S256x1024_S1024x512_S256x512_1_0_0_1_n_n none (truncf .bf16 (exp v24) bitsLt_bf16_f32) v11
          (constant S256x512 .f32 0x00000000#32)))
      (mahV v13 v15 (truncf .bf16 v21 bitsLt_bf16_f32)
        (matmul dot_S256x1024_S1024x512_S256x512_1_0_0_1_n_n none (truncf .bf16 (mulf v21 v21) bitsLt_bf16_f32) v11
          (constant S256x512 .f32 0x00000000#32))
        (constant S256x512 .f32 0x00000000#32)))
    (broadcast S256x512 (Scalar.ofBits .f32 0x44800000#32))

theorem avgV_at (v11 v13 : FVec Ideal S1024x512 .bf16) (v15 v17 : FVec Ideal S1x512 .f32) (v21 v24 : FVec Ideal S256x1024 .f32)
    (X : SX.Idx → EReal) (Wm : SW.Idx → EReal) (bm : Sb.Idx → EReal) (Wl : SW.Idx → EReal) (bl : Sb.Idx → EReal)
    (C L : SC.Idx → EReal) (r : Fin 8192) (p : Fin 256) (c : Fin 512)
    (h11 : ∀ (h : Fin 1024) (c : Fin 512), v11 (ix2 h c) = isg L c h)
    (h13 : ∀ (h : Fin 1024) (c : Fin 512), v13 (ix2 h c) = mi C L c h)
    (h15 : ∀ c : Fin 512, v15 (ix2 (0 : Fin 1) c) = c2 C L c)
    (h17 : ∀ c : Fin 512, v17 (ix2 (0 : Fin 1) c) = sl L c)
    (h21 : ∀ h : Fin 1024, v21 (ix2 p h) = aff X Wm bm r h)
    (h24 : ∀ h : Fin 1024, v24 (ix2 p h) = aff X Wl bl r h) :
    avgV v11 v13 v15 v17 v21 v24 (ix2 p c) = avg X Wm bm Wl bl C L r c := by
  have h1 : matmul dot_S256x1024_S1024x512_S256x512_1_0_0_1_n_n none (truncf .bf16 (exp v24) bitsLt_bf16_f32) v11
      (constant S256x512 .f32 0x00000000#32) (ix2 p c) = ∑ h : Fin 1024, Ideal.exp (aff X Wl bl r h) * isg L c h :=
    (Cert.Lib.matmul_plain_zero_apply (wf := dot_S256x1024_S1024x512_S256x512_1_0_0_1_n_n.wf) none _ v11 p c).trans
      (Finset.sum_congr rfl fun h _ => by
        rw [h11]
        show Ideal.exp (v24 (ix2 p h)) * _ = _
        rw [h24])
  have h2 : ∀ c' : Fin 512, matmul dot_S256x1024_S1024x512_S256x512_1_0_0_1_n_n none
      (truncf .bf16 (mulf v21 v21) bitsLt_bf16_f32) v11 (constant S256x512 .f32 0x00000000#32) (ix2 p c')
        = ∑ h : Fin 1024, (aff X Wm bm r h * aff X Wm bm r h) * isg L c' h := fun c' =>
    (Cert.Lib.matmul_plain_zero_apply (wf := dot_S256x1024_S1024x512_S256x512_1_0_0_1_n_n.wf) none _ v11 p c').trans
      (Finset.sum_congr rfl fun h _ => by
        rw [h11]
        show (v21 (ix2 p h) * v21 (ix2 p h)) * _ = _
        rw [h21])
  show Ideal.div ((broadcastTo S256x512 v17 broadcasts_S1x512_S256x512 (ix2 p c)
      + matmul dot_S256x1024_S1024x512_S256x512_1_0_0_1_n_n none (truncf .bf16 (exp v24) bitsLt_bf16_f32) v11
          (constant S256x512 .f32 0x00000000#32) (ix2 p c))
      + mahV v13 v15 (truncf .bf16 v21 bitsLt_bf16_f32)
          (matmul dot_S256x1024_S1024x512_S256x512_1_0_0_1_n_n none (truncf .bf16 (mulf v21 v21) bitsLt_bf16_f32) v11
            (constant S256x512 .f32 0x00000000#32))
          (constant S256x512 .f32 0x00000000#32) (ix2 p c))
    (Ideal.ofBits .f32 0x44800000#32) = _
  rw [h1, broadcastTo_1b_ab_apply, h17,
    mahV_at v13 v15 (truncf .bf16 v21 bitsLt_bf16_f32) _ C L (aff X Wm bm r) p c h13 h15 (fun h => h21 h) h2]
  rfl

/-- The weighted sum over centres, as the body states it. -/
theorem pay13_eq (v11 v13 : FVec Ideal S1024x512 .bf16) (v15 v17 : FVec Ideal S1x512 .f32) (v21 v24 : FVec Ideal S256x1024 .f32)
    (v30 : FVec Ideal S256x1024 .bf16) (v33 : FVec Ideal S256x512 .f32) (acc : FVec Ideal S256x512 .f32) :
    k0_pay13 (F := Ideal) v11 v13 v15 v17 v21 v24 v30 v33 acc
      = shapeCast S256x1 (multiReduction .add [1] S256
          (mulf (k0_pay12 (F := Ideal) v13 v15 v30 v33 acc) (avgV v11 v13 v15 v17 v21 v24))
          0x00000000#32 reduces_S256x512_S256 (.inl rfl) rfl) shapeCasts_S256_S256x1 := rfl

theorem pay13_at (v11 v13 : FVec Ideal S1024x512 .bf16) (v15 v17 : FVec Ideal S1x512 .f32) (v21 v24 : FVec Ideal S256x1024 .f32)
    (v30 : FVec Ideal S256x1024 .bf16) (v33 : FVec Ideal S256x512 .f32)
    (X : SX.Idx → EReal) (Wm : SW.Idx → EReal) (bm : Sb.Idx → EReal) (Wl : SW.Idx → EReal) (bl : Sb.Idx → EReal)
    (C L : SC.Idx → EReal) (N : SX.Idx → EReal) (r : Fin 8192) (p : Fin 256)
    (h11 : ∀ (h : Fin 1024) (c : Fin 512), v11 (ix2 h c) = isg L c h)
    (h13 : ∀ (h : Fin 1024) (c : Fin 512), v13 (ix2 h c) = mi C L c h)
    (h15 : ∀ c : Fin 512, v15 (ix2 (0 : Fin 1) c) = c2 C L c)
    (h17 : ∀ c : Fin 512, v17 (ix2 (0 : Fin 1) c) = sl L c)
    (h21 : ∀ h : Fin 1024, v21 (ix2 p h) = aff X Wm bm r h)
    (h24 : ∀ h : Fin 1024, v24 (ix2 p h) = aff X Wl bl r h)
    (h30 : ∀ h : Fin 1024, v30 (ix2 p h) = zs X Wm bm Wl bl N r h)
    (h33 : ∀ c : Fin 512, v33 (ix2 p c)
      = ∑ h : Fin 1024, (zs X Wm bm Wl bl N r h * zs X Wm bm Wl bl N r h) * isg L c h) :
    k0_pay13 (F := Ideal) v11 v13 v15 v17 v21 v24 v30 v33 (constant S256x512 .f32 0x00000000#32) (ix2 p (0 : Fin 1))
      = Spec.zero + ∑ c : Fin 512, att X Wm bm Wl bl C L N r c * avg X Wm bm Wl bl C L r c := by
  rw [pay13_eq, Cert.Lib.shapeCast_a_a1_apply, zero_add']
  refine (Cert.Lib.multiReduction_add_rows _ 0x00000000#32 reduces_S256x512_S256 (.inl rfl) rfl p).trans ?_
  refine Finset.sum_congr rfl fun c _ => ?_
  rw [mulf_apply, pay12_at v13 v15 v30 v33 X Wm bm Wl bl C L N r p c h13 h15 h30 h33,
    avgV_at v11 v13 v15 v17 v21 v24 X Wm bm Wl bl C L r p c h11 h13 h15 h17 h21 h24]

/-- The mean of `1 + log-variance` over features. -/
theorem pay14_at (v24 : FVec Ideal S256x1024 .f32) (X : SX.Idx → EReal) (Wl : SW.Idx → EReal) (bl : Sb.Idx → EReal)
    (r : Fin 8192) (p : Fin 256) (h24 : ∀ h : Fin 1024, v24 (ix2 p h) = aff X Wl bl r h) :
    k0_pay14 (F := Ideal) v24 (ix2 p (0 : Fin 1))
      = Ideal.div (Spec.zero + ∑ h : Fin 1024, (one + aff X Wl bl r h)) k1024 := by
  show Ideal.div (shapeCast S256x1 (multiReduction .add [1] S256
      (addf (broadcast S256x1024 (Scalar.ofBits .f32 0x3F800000#32)) v24) 0x00000000#32 reduces_S256x1024_S256 (.inl rfl) rfl)
      shapeCasts_S256_S256x1 (ix2 p (0 : Fin 1))) (Ideal.ofBits .f32 0x44800000#32) = _
  rw [Cert.Lib.shapeCast_a_a1_apply, zero_add']
  refine congrArg (fun s => Ideal.div s k1024)
    ((Cert.Lib.multiReduction_add_rows _ 0x00000000#32 reduces_S256x1024_S256 (.inl rfl) rfl p).trans
      (Finset.sum_congr rfl fun h _ => ?_))
  show Ideal.ofBits .f32 0x3F800000#32 + v24 (ix2 p h) = _
  rw [h24]

/-- The loss column: half the weighted sum minus half the mean. -/
theorem pay1_at (v73 v79 : FVec Ideal S256x1 .f32) (i : S256x1.Idx) :
    k0_pay1 (F := Ideal) v73 v79 i = half * v73 i - half * v79 i := rfl

end Cert.KernelBody

end
-- ==== Proof.BodyRows.lean ====
/-
  What each output block holds after the body, row by row: the body's three stored values as functions of the ten
  operand blocks, read at an index under the hypotheses that say what each operand block holds — row `p` of the batch
  blocks is row `r` of the batch, the weights arrive transposed, the biases and the centres' terms as one row, the
  inverse variances and the centres over their variances transposed.
-/
import proofs.«149031_j76905684402362_1_alg».proof.Proof.BodyLoss

noncomputable section

namespace Cert.KernelBody

open Cert.KernelIdeal Cert.KernelIdeal.Gen Idealize.ShloMosaic Idealize.ShloMosaic.ValueIdx Cert.Spec
open scoped BigOperators

/-- A cast to the same shape changes nothing. -/
theorem pay2_eq (x : Vec Ideal S1024x512 .bf16) : k0_pay2 (F := Ideal) x = x := by
  unfold k0_pay2; exact shapeCast_self _ _
theorem pay3_eq (x : Vec Ideal S1024x512 .bf16) : k0_pay3 (F := Ideal) x = x := by
  unfold k0_pay3; exact shapeCast_self _ _
theorem pay4_eq (x : Vec Ideal S1x512 .f32) : k0_pay4 (F := Ideal) x = x := by
  unfold k0_pay4; exact shapeCast_self _ _
theorem pay5_eq (x : Vec Ideal S1x512 .f32) : k0_pay5 (F := Ideal) x = x := by
  unfold k0_pay5; exact shapeCast_self _ _

/-- The assignment block. -/
theorem att_at (x0 x1 : Vec Ideal S256x1024 .f32) (x2 : Vec Ideal S1024x1024 .bf16) (x3 : Vec Ideal S1x1024 .f32)
    (x4 : Vec Ideal S1024x1024 .bf16) (x5 : Vec Ideal S1x1024 .f32) (x6 x7 : Vec Ideal S1024x512 .bf16)
    (x8 : Vec Ideal S1x512 .f32)
    (X : SX.Idx → EReal) (Wm : SW.Idx → EReal) (bm : Sb.Idx → EReal) (Wl : SW.Idx → EReal) (bl : Sb.Idx → EReal)
    (C L : SC.Idx → EReal) (N : SX.Idx → EReal) (r : Fin 8192) (p : Fin 256) (c : Fin 512)
    (hx : ∀ k : Fin 1024, x0 (ix2 p k) = X (ix2 r k)) (hn : ∀ k : Fin 1024, x1 (ix2 p k) = N (ix2 r k))
    (hwm : ∀ k q : Fin 1024, x2 (ix2 k q) = Wm (ix2 q k)) (hbm : ∀ q : Fin 1024, x3 (ix2 (0 : Fin 1) q) = bm (ix1 q))
    (hwl : ∀ k q : Fin 1024, x4 (ix2 k q) = Wl (ix2 q k)) (hbl : ∀ q : Fin 1024, x5 (ix2 (0 : Fin 1) q) = bl (ix1 q))
    (h6 : ∀ (h : Fin 1024) (c : Fin 512), x6 (ix2 h c) = isg L c h)
    (h7 : ∀ (h : Fin 1024) (c : Fin 512), x7 (ix2 h c) = mi C L c h)
    (h8 : ∀ c : Fin 512, x8 (ix2 (0 : Fin 1) c) = c2 C L c) :
    k0_pay12 (F := Ideal) (k0_pay3 x7) (k0_pay4 x8) (k0_pay10 x0 x1 x2 x3 x4 x5) (k0_pay11 x0 x1 x2 x3 x4 x5 x6)
        (constant S256x512 .f32 0x00000000#32) (ix2 p c)
      = att X Wm bm Wl bl C L N r c := by
  rw [pay3_eq, pay4_eq]
  exact pay12_at x7 x8 (k0_pay10 x0 x1 x2 x3 x4 x5) (k0_pay11 x0 x1 x2 x3 x4 x5 x6) X Wm bm Wl bl C L N r p c h7 h8
    (fun h => pay9_at x0 x1 x2 x3 x4 x5 X Wm bm Wl bl N r p h hx hn hwm hbm hwl hbl)
    (fun c' => pay11_at x0 x1 x2 x3 x4 x5 x6 X Wm bm Wl bl L N r p c' hx hn hwm hbm hwl hbl h6)

/-- The loss block (one column). -/
theorem loss_at (x0 x1 : Vec Ideal S256x1024 .f32) (x2 : Vec Ideal S1024x1024 .bf16) (x3 : Vec Ideal S1x1024 .f32)
    (x4 : Vec Ideal S1024x1024 .bf16) (x5 : Vec Ideal S1x1024 .f32) (x6 x7 : Vec Ideal S1024x512 .bf16)
    (x8 x9 : Vec Ideal S1x512 .f32)
    (X : SX.Idx → EReal) (Wm : SW.Idx → EReal) (bm : Sb.Idx → EReal) (Wl : SW.Idx → EReal) (bl : Sb.Idx → EReal)
    (C L : SC.Idx → EReal) (N : SX.Idx → EReal) (r : Fin 8192) (p : Fin 256)
    (hx : ∀ k : Fin 1024, x0 (ix2 p k) = X (ix2 r k)) (hn : ∀ k : Fin 1024, x1 (ix2 p k) = N (ix2 r k))
    (hwm : ∀ k q : Fin 1024, x2 (ix2 k q) = Wm (ix2 q k)) (hbm : ∀ q : Fin 1024, x3 (ix2 (0 : Fin 1) q) = bm (ix1 q))
    (hwl : ∀ k q : Fin 1024, x4 (ix2 k q) = Wl (ix2 q k)) (hbl : ∀ q : Fin 1024, x5 (ix2 (0 : Fin 1) q) = bl (ix1 q))
    (h6 : ∀ (h : Fin 1024) (c : Fin 512), x6 (ix2 h c) = isg L c h)
    (h7 : ∀ (h : Fin 1024) (c : Fin 512), x7 (ix2 h c) = mi C L c h)
    (h8 : ∀ c : Fin 512, x8 (ix2 (0 : Fin 1) c) = c2 C L c)
    (h9 : ∀ c : Fin 512, x9 (ix2 (0 : Fin 1) c) = sl L c) :
    k0_pay1 (F := Ideal)
        (k0_pay13 (k0_pay2 x6) (k0_pay3 x7) (k0_pay4 x8) (k0_pay5 x9) (k0_pay7 x0 x2 x3) (k0_pay8 x0 x4 x5)
          (k0_pay10 x0 x1 x2 x3 x4 x5) (k0_pay11 x0 x1 x2 x3 x4 x5 x6) (constant S256x512 .f32 0x00000000#32))
        (k0_pay14 (k0_pay8 x0 x4 x5)) (ix2 p (0 : Fin 1))
      = loss X Wm bm Wl bl C L N r := by
  rw [pay1_at, pay2_eq, pay3_eq, pay4_eq, pay5_eq,
    pay13_at x6 x7 x8 x9 (k0_pay7 x0 x2 x3) (k0_pay8 x0 x4 x5) (k0_pay10 x0 x1 x2 x3 x4 x5)
      (k0_pay11 x0 x1 x2 x3 x4 x5 x6) X Wm bm Wl bl C L N r p h6 h7 h8 h9
      (fun h => pay7_at x0 x2 x3 X Wm bm r p h hx hwm hbm)
      (fun h => pay8_at x0 x4 x5 X Wl bl r p h hx hwl hbl)
      (fun h => pay9_at x0 x1 x2 x3 x4 x5 X Wm bm Wl bl N r p h hx hn hwm hbm hwl hbl)
      (fun c' => pay11_at x0 x1 x2 x3 x4 x5 x6 X Wm bm Wl bl L N r p c' hx hn hwm hbm hwl hbl h6),
    pay14_at (k0_pay8 x0 x4 x5) X Wl bl r p (fun h => pay8_at x0 x4 x5 X Wl bl r p h hx hwl hbl)]
  rfl

end Cert.KernelBody

end
-- ==== Proof.Prefix.lean ====
/-
  What the region's staged operands hold when the region is entered.

  Before its region the kernel program prepares eight operands from the argument arrays, by host operations: the two
  weight matrices transposed (and re-formatted, which changes nothing on the extended reals), the two biases as one-row
  arrays, the centres' inverse variances `exp(−L)` and the centres over their variances `C·exp(−L)`, both transposed,
  and, as one-row arrays, each centre's own quadratic term `Σ_h C·(C·exp(−L))` and its summed log-variance `Σ_h L`,
  each with the zero word in front. Read at an index, each operand is the corresponding entry of the argument arrays or
  the corresponding per-centre quantity of the specification.
-/
import proofs.«149031_j76905684402362_1_alg».proof.Proof.Gen.KernelIdeal.Frame
import proofs.«149031_j76905684402362_1_alg».proof.Proof.Spec
import proofs.«149031_j76905684402362_1_alg».proof.Proof.LibRowSum
import Idealize.ShloMosaic.Lib.StableHlo.Run
import Idealize.ShloMosaic.Lib.ValueLayout
import Idealize.ShloMosaic.Lib.ValueIdx
import Idealize.ShloMosaic.PureOps.Ideal.Laws

noncomputable section

namespace Cert.KernelPrefix

open Cert.KernelIdeal Cert.KernelIdeal.Gen Idealize.ShloMosaic Idealize.ShloMosaic.TcCoe Idealize.ShloMosaic.ValueIdx
  Idealize.SL.Sem Idealize.ShloMosaic.StableHlo
open scoped BigOperators

variable (m : (ℓ : Loc nD τ sig) → Buf (Elt Ideal) ℓ)

/-- The shapes of a sum over a centre's features: a centre with a feature's coordinate put back is the pair. -/
theorem reduces_centres : S512x1024.Reduces [1] S512 := by decide

/-! ## The transposed weights -/

/-- The first weights, transposed: entry `(k, q)` is the argument's entry `(q, k)`. -/
theorem win2_at (c : Dev nD) (k q : Fin 1024) :
    V m c main_v1 (ix2 k q) = m ((c : Thread nD τ).loc main_arg1) (ix2 q k) := by
  have e : V m c main_v1 (ix2 k q)
      = (truncf (F := Ideal) .bf16 (transpose S1024x1024 [1, 0] (m ((c : Thread nD τ).loc main_arg1))
          transposes_S1024x1024_S1024x1024_1_0) bitsLt_bf16_f32 : FVec Ideal S1024x1024 .bf16) (ix2 k q) := by
    refine congrFun ?_ (ix2 k q)
    show StableHlo.after hostOps0 (fun b => m (c, b)) (Proc.devRef .tc main_v1) = _
    after_results
  exact e.trans (transpose_ix2_apply _ _ k q)

/-- The second weights, transposed. -/
theorem win4_at (c : Dev nD) (k q : Fin 1024) :
    V m c main_v3 (ix2 k q) = m ((c : Thread nD τ).loc main_arg3) (ix2 q k) := by
  have e : V m c main_v3 (ix2 k q)
      = (truncf (F := Ideal) .bf16 (transpose S1024x1024 [1, 0] (m ((c : Thread nD τ).loc main_arg3))
          transposes_S1024x1024_S1024x1024_1_0) bitsLt_bf16_f32 : FVec Ideal S1024x1024 .bf16) (ix2 k q) := by
    refine congrFun ?_ (ix2 k q)
    show StableHlo.after hostOps0 (fun b => m (c, b)) (Proc.devRef .tc main_v3) = _
    after_results
  exact e.trans (transpose_ix2_apply _ _ k q)

/-! ## The biases as one-row arrays -/

/-- The first bias: entry `(0, q)` is the argument's entry `q`. -/
theorem win3_at (c : Dev nD) (q : Fin 1024) :
    V m c main_v16 (ix2 (0 : Fin 1) q) = m ((c : Thread nD τ).loc main_arg2) (ix1 q) := by
  have e : V m c main_v16 (ix2 (0 : Fin 1) q)
      = shapeCast S1x1024 (m ((c : Thread nD τ).loc main_arg2)) shapeCasts_S1024_S1x1024 (ix2 (0 : Fin 1) q) := by
    refine congrFun ?_ (ix2 (0 : Fin 1) q)
    show StableHlo.after hostOps0 (fun b => m (c, b)) (Proc.devRef .tc main_v16) = _
    after_results
    rfl
  exact e.trans (shapeCast_a_1a_apply _ _ 0 q)

/-- The second bias. -/
theorem win5_at (c : Dev nD) (q : Fin 1024) :
    V m c main_v17 (ix2 (0 : Fin 1) q) = m ((c : Thread nD τ).loc main_arg4) (ix1 q) := by
  have e : V m c main_v17 (ix2 (0 : Fin 1) q)
      = shapeCast S1x1024 (m ((c : Thread nD τ).loc main_arg4)) shapeCasts_S1024_S1x1024 (ix2 (0 : Fin 1) q) := by
    refine congrFun ?_ (ix2 (0 : Fin 1) q)
    show StableHlo.after hostOps0 (fun b => m (c, b)) (Proc.devRef .tc main_v17) = _
    after_results
    rfl
  exact e.trans (shapeCast_a_1a_apply _ _ 0 q)

/-! ## The per-centre operands -/

/-- The inverse variances, transposed: entry `(h, c')` is `exp(−L(c', h))`. -/
theorem win6_at (c : Dev nD) (h : Fin 1024) (c' : Fin 512) :
    V m c main_v13 (ix2 h c') = Cert.Spec.isg (m ((c : Thread nD τ).loc main_arg6)) c' h := by
  have e : V m c main_v13 (ix2 h c')
      = (truncf (F := Ideal) .bf16 (transpose S1024x512 [1, 0] (Host.exp (Host.negf (m ((c : Thread nD τ).loc main_arg6))))
          transposes_S512x1024_S1024x512_1_0) bitsLt_bf16_f32 : FVec Ideal S1024x512 .bf16) (ix2 h c') := by
    refine congrFun ?_ (ix2 h c')
    show StableHlo.after hostOps0 (fun b => m (c, b)) (Proc.devRef .tc main_v13) = _
    after_results
  refine e.trans ((truncf_apply (ψ := .bf16) _ bitsLt_bf16_f32 (ix2 h c')).trans
    ((transpose_ix2_apply _ _ h c').trans ?_))
  rfl

/-- The centres over their variances, transposed: entry `(h, c')` is `C(c', h)·exp(−L(c', h))`. -/
theorem win7_at (c : Dev nD) (h : Fin 1024) (c' : Fin 512) :
    V m c main_v15 (ix2 h c') = Cert.Spec.mi (m ((c : Thread nD τ).loc main_arg5)) (m ((c : Thread nD τ).loc main_arg6)) c' h := by
  have e : V m c main_v15 (ix2 h c')
      = (truncf (F := Ideal) .bf16 (transpose S1024x512 [1, 0]
          (mulf (m ((c : Thread nD τ).loc main_arg5)) (Host.exp (Host.negf (m ((c : Thread nD τ).loc main_arg6)))))
          transposes_S512x1024_S1024x512_1_0) bitsLt_bf16_f32 : FVec Ideal S1024x512 .bf16) (ix2 h c') := by
    refine congrFun ?_ (ix2 h c')
    show StableHlo.after hostOps0 (fun b => m (c, b)) (Proc.devRef .tc main_v15) = _
    after_results
  refine e.trans ((truncf_apply (ψ := .bf16) _ bitsLt_bf16_f32 (ix2 h c')).trans
    ((transpose_ix2_apply _ _ h c').trans ?_))
  rfl

/-- Each centre's own quadratic term, as a one-row array: the zero word plus the sum over the centre's features. -/
theorem win8_at (c : Dev nD) (c' : Fin 512) :
    V m c main_v9 (ix2 (0 : Fin 1) c') = Cert.Spec.c2 (m ((c : Thread nD τ).loc main_arg5)) (m ((c : Thread nD τ).loc main_arg6)) c' := by
  have e : V m c main_v9 (ix2 (0 : Fin 1) c')
      = shapeCast S1x512 (Host.reduceAdd
          (mulf (m ((c : Thread nD τ).loc main_arg5)) (mulf (m ((c : Thread nD τ).loc main_arg5)) (Host.exp (Host.negf (m ((c : Thread nD τ).loc main_arg6))))))
          (constant (F := Ideal) S_ .f32 0x00000000#32) reducesTo_S512x1024_S512_d1 h_S_)
          shapeCasts_S512_S1x512 (ix2 (0 : Fin 1) c') := by
    refine congrFun ?_ (ix2 (0 : Fin 1) c')
    show StableHlo.after hostOps0 (fun b => m (c, b)) (Proc.devRef .tc main_v9) = _
    after_results
    rfl
  refine e.trans ((shapeCast_a_1a_apply _ _ 0 c').trans ?_)
  exact (Cert.Lib.hostReduceAdd_rows _ _ reducesTo_S512x1024_S512_d1 reduces_centres h_S_ c').trans rfl

/-- Each centre's summed log-variance, as a one-row array. -/
theorem win9_at (c : Dev nD) (c' : Fin 512) :
    V m c main_v11 (ix2 (0 : Fin 1) c') = Cert.Spec.sl (m ((c : Thread nD τ).loc main_arg6)) c' := by
  have e : V m c main_v11 (ix2 (0 : Fin 1) c')
      = shapeCast S1x512 (Host.reduceAdd (m ((c : Thread nD τ).loc main_arg6))
          (constant (F := Ideal) S_ .f32 0x00000000#32) reducesTo_S512x1024_S512_d1 h_S_)
          shapeCasts_S512_S1x512 (ix2 (0 : Fin 1) c') := by
    refine congrFun ?_ (ix2 (0 : Fin 1) c')
    show StableHlo.after hostOps0 (fun b => m (c, b)) (Proc.devRef .tc main_v11) = _
    after_results
    rfl
  refine e.trans ((shapeCast_a_1a_apply _ _ 0 c').trans ?_)
  exact (Cert.Lib.hostReduceAdd_rows _ _ reducesTo_S512x1024_S512_d1 reduces_centres h_S_ c').trans rfl

end Cert.KernelPrefix

end
-- ==== Proof.BlocksOut.lean ====
/-
  From blocks to arrays: each result array of the kernel's region as one function of the argument arrays.

  At point `t` the body leaves, in each output block, the body's stored value of the operand blocks; read at row `p`
  that is the specification's row function at batch row `256·t + p`. The 32 blocks of each output tile its array, so
  after the region the array is that row function at every row.
-/
import proofs.«149031_j76905684402362_1_alg».proof.Proof.BlocksIn
import proofs.«149031_j76905684402362_1_alg».proof.Proof.BodyRows
import proofs.«149031_j76905684402362_1_alg».proof.Proof.Prefix
import Idealize.ShloMosaic.Lib.Pipeline.Value

set_option maxRecDepth 16384

noncomputable section

namespace Cert.KernelBlocks

open Cert.KernelIdeal Cert.KernelIdeal.Gen Idealize.ShloMosaic Idealize.ShloMosaic.TcCoe Idealize.ShloMosaic.ValueIdx
open Idealize.SL.Sem Cert.KernelBody
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The sample array: the specification's sample at every row and feature. -/
def Gz (c : Dev nD) : S8192x1024.Idx → EReal := fun i => Spec.zs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (i 0) (i 1)
/-- The assignment array. -/
def Ga (c : Dev nD) : S8192x512.Idx → EReal := fun i => Spec.att (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0) (i 1)
/-- The loss column. -/
def Gl (c : Dev nD) : S8192x1.Idx → EReal := fun i => Spec.loss (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0)

/-- What point `t` writes back to the sample array is block `t` of `Gz`. -/
theorem flushed10_eq (c : Dev nD) (t : Fin cfg0.N) :
    (dats m 0 c).flushed 10 t = ((cfg0.win 10).blk t).view.read (Elt Ideal) (Gz m c) := by
  show (cfg0.win 10).cut (grid0.coords t) ((dats m 0 c).after 10 t) = _
  rw [after0_10]
  unfold out0_10
  rw [View.canon_unit_zero hz]
  simp only [View.ld_unit_zero (S := S256x1024) hz, View.ld_unit_zero (S := S1024x1024) hz, View.ld_unit_zero (S := S1x1024) hz]
  obtain ⟨e0a, e0b, e1a, e1b, e10a, e10b, e11a, e11b, e12a, e12b, e2a, e2b, e3a, e3b, e4a, e4b, e5a, e5b, e6a, e6b, e7a, e7b, e8a, e8b, e9a, e9b⟩ := idx_facts t
  funext j
  obtain ⟨p, q, rfl⟩ : ∃ (p : Fin 256) (q : Fin 1024), j = ix2 p q := ⟨j 0, j 1, eq_ix2 j⟩
  refine (pay9_at (iblk m c 0 t) (iblk m c 1 t) (iblk m c 2 t) (iblk m c 3 t) (iblk m c 4 t) (iblk m c 5 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (row t p) p q
    (fun k => blk0_at m c t p k) (fun k => blk1_at m c t p k)
    (fun k q => (blk2_at m c t k q).trans (Cert.KernelPrefix.win2_at m c k q))
    (fun q => (blk3_at m c t (0 : Fin 1) q).trans (Cert.KernelPrefix.win3_at m c q))
    (fun k q => (blk4_at m c t k q).trans (Cert.KernelPrefix.win4_at m c k q))
    (fun q => (blk5_at m c t (0 : Fin 1) q).trans (Cert.KernelPrefix.win5_at m c q))).trans ?_
  show _ = Spec.zs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) ((((cfg0.win 10).blk t).view.emb (ix2 p q)) 0) ((((cfg0.win 10).blk t).view.emb (ix2 p q)) 1)
  have h0 : (((cfg0.win 10).blk t).view.emb (ix2 p q)) 0 = row t p := Fin.ext (by
    show win0_10.index t (0 : Fin 2) * 256 + 1 * p.val = _
    rw [e10a, row_val]; omega)
  have h1 : (((cfg0.win 10).blk t).view.emb (ix2 p q)) 1 = q := Fin.ext (by
    show win0_10.index t (1 : Fin 2) * 1024 + 1 * q.val = _
    rw [e10b]; omega)
  rw [h0, h1]

/-- What point `t` writes back to the assignment array is block `t` of `Ga`. -/
theorem flushed11_eq (c : Dev nD) (t : Fin cfg0.N) :
    (dats m 0 c).flushed 11 t = ((cfg0.win 11).blk t).view.read (Elt Ideal) (Ga m c) := by
  show (cfg0.win 11).cut (grid0.coords t) ((dats m 0 c).after 11 t) = _
  rw [after0_11]
  unfold out0_11
  rw [View.canon_unit_zero hz]
  simp only [View.ld_unit_zero (S := S256x1024) hz, View.ld_unit_zero (S := S1024x1024) hz, View.ld_unit_zero (S := S1x1024) hz,
    View.ld_unit_zero (S := S1024x512) hz, View.ld_unit_zero (S := S1x512) hz]
  obtain ⟨e0a, e0b, e1a, e1b, e10a, e10b, e11a, e11b, e12a, e12b, e2a, e2b, e3a, e3b, e4a, e4b, e5a, e5b, e6a, e6b, e7a, e7b, e8a, e8b, e9a, e9b⟩ := idx_facts t
  funext j
  obtain ⟨p, q, rfl⟩ : ∃ (p : Fin 256) (q : Fin 512), j = ix2 p q := ⟨j 0, j 1, eq_ix2 j⟩
  refine (att_at (iblk m c 0 t) (iblk m c 1 t) (iblk m c 2 t) (iblk m c 3 t) (iblk m c 4 t) (iblk m c 5 t) (iblk m c 6 t) (iblk m c 7 t) (iblk m c 8 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (row t p) p q
    (fun k => blk0_at m c t p k) (fun k => blk1_at m c t p k)
    (fun k q => (blk2_at m c t k q).trans (Cert.KernelPrefix.win2_at m c k q))
    (fun q => (blk3_at m c t (0 : Fin 1) q).trans (Cert.KernelPrefix.win3_at m c q))
    (fun k q => (blk4_at m c t k q).trans (Cert.KernelPrefix.win4_at m c k q))
    (fun q => (blk5_at m c t (0 : Fin 1) q).trans (Cert.KernelPrefix.win5_at m c q))
    (fun h c' => (blk6_at m c t h c').trans (Cert.KernelPrefix.win6_at m c h c'))
    (fun h c' => (blk7_at m c t h c').trans (Cert.KernelPrefix.win7_at m c h c'))
    (fun c' => (blk8_at m c t (0 : Fin 1) c').trans (Cert.KernelPrefix.win8_at m c c'))).trans ?_
  show _ = Spec.att (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) ((((cfg0.win 11).blk t).view.emb (ix2 p q)) 0) ((((cfg0.win 11).blk t).view.emb (ix2 p q)) 1)
  have h0 : (((cfg0.win 11).blk t).view.emb (ix2 p q)) 0 = row t p := Fin.ext (by
    show win0_11.index t (0 : Fin 2) * 256 + 1 * p.val = _
    rw [e11a, row_val]; omega)
  have h1 : (((cfg0.win 11).blk t).view.emb (ix2 p q)) 1 = q := Fin.ext (by
    show win0_11.index t (1 : Fin 2) * 512 + 1 * q.val = _
    rw [e11b]; omega)
  rw [h0, h1]

/-- What point `t` writes back to the loss column is block `t` of `Gl`. -/
theorem flushed12_eq (c : Dev nD) (t : Fin cfg0.N) :
    (dats m 0 c).flushed 12 t = ((cfg0.win 12).blk t).view.read (Elt Ideal) (Gl m c) := by
  show (cfg0.win 12).cut (grid0.coords t) ((dats m 0 c).after 12 t) = _
  rw [after0_12]
  unfold out0_12
  rw [View.canon_unit_zero hz]
  simp only [View.ld_unit_zero (S := S256x1024) hz, View.ld_unit_zero (S := S1024x1024) hz, View.ld_unit_zero (S := S1x1024) hz,
    View.ld_unit_zero (S := S1024x512) hz, View.ld_unit_zero (S := S1x512) hz]
  obtain ⟨e0a, e0b, e1a, e1b, e10a, e10b, e11a, e11b, e12a, e12b, e2a, e2b, e3a, e3b, e4a, e4b, e5a, e5b, e6a, e6b, e7a, e7b, e8a, e8b, e9a, e9b⟩ := idx_facts t
  funext j
  obtain ⟨p, u, rfl⟩ : ∃ (p : Fin 256) (u : Fin 1), j = ix2 p u := ⟨j 0, j 1, eq_ix2 j⟩
  obtain rfl : u = 0 := Subsingleton.elim _ _
  refine (loss_at (iblk m c 0 t) (iblk m c 1 t) (iblk m c 2 t) (iblk m c 3 t) (iblk m c 4 t) (iblk m c 5 t) (iblk m c 6 t) (iblk m c 7 t) (iblk m c 8 t) (iblk m c 9 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (row t p) p
    (fun k => blk0_at m c t p k) (fun k => blk1_at m c t p k)
    (fun k q => (blk2_at m c t k q).trans (Cert.KernelPrefix.win2_at m c k q))
    (fun q => (blk3_at m c t (0 : Fin 1) q).trans (Cert.KernelPrefix.win3_at m c q))
    (fun k q => (blk4_at m c t k q).trans (Cert.KernelPrefix.win4_at m c k q))
    (fun q => (blk5_at m c t (0 : Fin 1) q).trans (Cert.KernelPrefix.win5_at m c q))
    (fun h c' => (blk6_at m c t h c').trans (Cert.KernelPrefix.win6_at m c h c'))
    (fun h c' => (blk7_at m c t h c').trans (Cert.KernelPrefix.win7_at m c h c'))
    (fun c' => (blk8_at m c t (0 : Fin 1) c').trans (Cert.KernelPrefix.win8_at m c c'))
    (fun c' => (blk9_at m c t (0 : Fin 1) c').trans (Cert.KernelPrefix.win9_at m c c'))).trans ?_
  show _ = Spec.loss (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) ((((cfg0.win 12).blk t).view.emb (ix2 p (0 : Fin 1))) 0)
  have h0 : (((cfg0.win 12).blk t).view.emb (ix2 p (0 : Fin 1))) 0 = row t p := Fin.ext (by
    show win0_12.index t (0 : Fin 2) * 256 + 1 * p.val = _
    rw [e12a, row_val]; omega)
  rw [h0]

/-- An index of the array is in point `t`'s block of window 10 iff each coordinate is in the block's range. -/
theorem mem_blk10 (t : Fin cfg0.N) (i : S8192x1024.Idx) :
    i ∈ ((cfg0.win 10).blk t).view.set ↔ ∀ a : Fin 2, win0_10.index t a * S256x1024.size a ≤ (i a).val
      ∧ (i a).val < win0_10.index t a * S256x1024.size a + S256x1024.size a := by
  show i ∈ ((View.whole main_v18_0).slice (win0_10.rect t)).set ↔ _
  rw [View.set_slice_whole, Rect.mem_set_unit]
  exact Iff.rfl

/-- Every index of the array is in the block of the point its row falls in. -/
theorem cover10 (i : S8192x1024.Idx) :
    ∃ t : Fin cfg0.N, (cfg0.win 10).flush t = true ∧ i ∈ ((cfg0.win 10).blk t).view.set := by
  have hi0 : (i 0).val < 8192 := (i 0).isLt
  have hi1 : (i 1).val < 1024 := (i 1).isLt
  have hN : (i 0).val / 256 < cfg0.N := lt_of_lt_of_eq (by omega : (i 0).val / 256 < 32) N_0.symm
  obtain ⟨t, ht⟩ : ∃ t : Fin cfg0.N, t.val = (i 0).val / 256 := ⟨⟨(i 0).val / 256, hN⟩, rfl⟩
  obtain ⟨e0a, e0b, e1a, e1b, e10a, e10b, e11a, e11b, e12a, e12b, e2a, e2b, e3a, e3b, e4a, e4b, e5a, e5b, e6a, e6b, e7a, e7b, e8a, e8b, e9a, e9b⟩ := idx_facts t
  refine ⟨t, flush0_10 t, ?_⟩
  rw [mem_blk10]
  intro a
  match a with
  | ⟨0, _⟩ =>
    show win0_10.index t (0 : Fin 2) * 256 ≤ (i 0).val ∧ (i 0).val < win0_10.index t (0 : Fin 2) * 256 + 256
    rw [e10a, ht]; omega
  | ⟨1, _⟩ =>
    show win0_10.index t (1 : Fin 2) * 1024 ≤ (i 1).val ∧ (i 1).val < win0_10.index t (1 : Fin 2) * 1024 + 1024
    rw [e10b]; omega

/-- An index of the array is in point `t`'s block of window 11 iff each coordinate is in the block's range. -/
theorem mem_blk11 (t : Fin cfg0.N) (i : S8192x512.Idx) :
    i ∈ ((cfg0.win 11).blk t).view.set ↔ ∀ a : Fin 2, win0_11.index t a * S256x512.size a ≤ (i a).val
      ∧ (i a).val < win0_11.index t a * S256x512.size a + S256x512.size a := by
  show i ∈ ((View.whole main_v18_1).slice (win0_11.rect t)).set ↔ _
  rw [View.set_slice_whole, Rect.mem_set_unit]
  exact Iff.rfl

/-- Every index of the array is in the block of the point its row falls in. -/
theorem cover11 (i : S8192x512.Idx) :
    ∃ t : Fin cfg0.N, (cfg0.win 11).flush t = true ∧ i ∈ ((cfg0.win 11).blk t).view.set := by
  have hi0 : (i 0).val < 8192 := (i 0).isLt
  have hi1 : (i 1).val < 512 := (i 1).isLt
  have hN : (i 0).val / 256 < cfg0.N := lt_of_lt_of_eq (by omega : (i 0).val / 256 < 32) N_0.symm
  obtain ⟨t, ht⟩ : ∃ t : Fin cfg0.N, t.val = (i 0).val / 256 := ⟨⟨(i 0).val / 256, hN⟩, rfl⟩
  obtain ⟨e0a, e0b, e1a, e1b, e10a, e10b, e11a, e11b, e12a, e12b, e2a, e2b, e3a, e3b, e4a, e4b, e5a, e5b, e6a, e6b, e7a, e7b, e8a, e8b, e9a, e9b⟩ := idx_facts t
  refine ⟨t, flush0_11 t, ?_⟩
  rw [mem_blk11]
  intro a
  match a with
  | ⟨0, _⟩ =>
    show win0_11.index t (0 : Fin 2) * 256 ≤ (i 0).val ∧ (i 0).val < win0_11.index t (0 : Fin 2) * 256 + 256
    rw [e11a, ht]; omega
  | ⟨1, _⟩ =>
    show win0_11.index t (1 : Fin 2) * 512 ≤ (i 1).val ∧ (i 1).val < win0_11.index t (1 : Fin 2) * 512 + 512
    rw [e11b]; omega

/-- An index of the array is in point `t`'s block of window 12 iff each coordinate is in the block's range. -/
theorem mem_blk12 (t : Fin cfg0.N) (i : S8192x1.Idx) :
    i ∈ ((cfg0.win 12).blk t).view.set ↔ ∀ a : Fin 2, win0_12.index t a * S256x1.size a ≤ (i a).val
      ∧ (i a).val < win0_12.index t a * S256x1.size a + S256x1.size a := by
  show i ∈ ((View.whole main_v18_2).slice (win0_12.rect t)).set ↔ _
  rw [View.set_slice_whole, Rect.mem_set_unit]
  exact Iff.rfl

/-- Every index of the array is in the block of the point its row falls in. -/
theorem cover12 (i : S8192x1.Idx) :
    ∃ t : Fin cfg0.N, (cfg0.win 12).flush t = true ∧ i ∈ ((cfg0.win 12).blk t).view.set := by
  have hi0 : (i 0).val < 8192 := (i 0).isLt
  have hi1 : (i 1).val < 1 := (i 1).isLt
  have hN : (i 0).val / 256 < cfg0.N := lt_of_lt_of_eq (by omega : (i 0).val / 256 < 32) N_0.symm
  obtain ⟨t, ht⟩ : ∃ t : Fin cfg0.N, t.val = (i 0).val / 256 := ⟨⟨(i 0).val / 256, hN⟩, rfl⟩
  obtain ⟨e0a, e0b, e1a, e1b, e10a, e10b, e11a, e11b, e12a, e12b, e2a, e2b, e3a, e3b, e4a, e4b, e5a, e5b, e6a, e6b, e7a, e7b, e8a, e8b, e9a, e9b⟩ := idx_facts t
  refine ⟨t, flush0_12 t, ?_⟩
  rw [mem_blk12]
  intro a
  match a with
  | ⟨0, _⟩ =>
    show win0_12.index t (0 : Fin 2) * 256 ≤ (i 0).val ∧ (i 0).val < win0_12.index t (0 : Fin 2) * 256 + 256
    rw [e12a, ht]; omega
  | ⟨1, _⟩ =>
    show win0_12.index t (1 : Fin 2) * 1 ≤ (i 1).val ∧ (i 1).val < win0_12.index t (1 : Fin 2) * 1 + 1
    rw [e12b]; omega

/-- The three result arrays after the region. -/
theorem final10 (c : Dev nD) : (dats m 0 c).arrAt 10 cfg0.N = Gz m c :=
  (dats m 0 c).arrAt_eq_of_cover 10 (Gz m c) (fun t _ => flushed10_eq m c t) cover10
theorem final11 (c : Dev nD) : (dats m 0 c).arrAt 11 cfg0.N = Ga m c :=
  (dats m 0 c).arrAt_eq_of_cover 11 (Ga m c) (fun t _ => flushed11_eq m c t) cover11
theorem final12 (c : Dev nD) : (dats m 0 c).arrAt 12 cfg0.N = Gl m c :=
  (dats m 0 c).arrAt_eq_of_cover 12 (Gl m c) (fun t _ => flushed12_eq m c t) cover12

end Cert.KernelBlocks

end
-- ==== Proof.Cate.lean ====
/-
  The category loss of an assignment array, as both programs compute it on the host.

  From an `[8192, 512]` array `a` of assignments: the mean over the batch of each centre's column,
  `q c = (Σ_r a(r,c)) / 8192`; then the mean over centres of `q c · log (q c)`, i.e. `(Σ_c q c · log (q c)) / 512`.
  Both programs apply these very operations, in this order, to their assignment arrays; the function is stated once,
  over the shape facts each program supplies, so that the two tails are the same term.
-/
import Idealize.ShloMosaic.PureOps.Ideal
import Idealize.ShloMosaic.Lib.ValueIdx

noncomputable section

namespace Cert.Spec

open Idealize.ShloMosaic

/-- The host tail: column means, `q · log q`, and the mean of that over centres. -/
def cate (h1 : (⟨2, ![8192, 512]⟩ : Shape).ReducesTo [0] (⟨1, ![512]⟩ : Shape)) (h0 : 0 < (⟨0, ![]⟩ : Shape).numel)
    (hb : (⟨0, ![]⟩ : Shape).BroadcastsInDim (⟨1, ![512]⟩ : Shape) (![] : Fin 0 → Fin (⟨1, ![512]⟩ : Shape).rank))
    (h2 : (⟨1, ![512]⟩ : Shape).ReducesTo [0] (⟨0, ![]⟩ : Shape))
    (a : FVec Ideal ⟨2, ![8192, 512]⟩ .f32) : FVec Ideal ⟨0, ![]⟩ .f32 :=
  Host.divf
    (Host.reduceAdd
      (mulf
        (Host.divf (Host.reduceAdd a (constant (F := Ideal) ⟨0, ![]⟩ .f32 0x00000000#32) h1 h0)
          (broadcastInDim ⟨1, ![512]⟩ ![] hb (constant (F := Ideal) ⟨0, ![]⟩ .f32 0x46000000#32)))
        (Host.log
          (Host.divf (Host.reduceAdd a (constant (F := Ideal) ⟨0, ![]⟩ .f32 0x00000000#32) h1 h0)
            (broadcastInDim ⟨1, ![512]⟩ ![] hb (constant (F := Ideal) ⟨0, ![]⟩ .f32 0x46000000#32)))))
      (constant (F := Ideal) ⟨0, ![]⟩ .f32 0x00000000#32) h2 h0)
    (constant (F := Ideal) ⟨0, ![]⟩ .f32 0x44000000#32)

end Cert.Spec

end
-- ==== Proof.LibColumnBack.lean ====
/-
  A column read back as a vector.

  An `[a, 1]` column reshaped to a vector of `a` entries reads, at `i`, the column's entry `(i, 0)`: the inverse of laying
  a vector as a column.
-/
import Idealize.ShloMosaic.Lib.ValueIdx
import Idealize.ShloMosaic.Lib.Pipeline.Value

noncomputable section

namespace Cert.Lib

open Idealize.ShloMosaic Idealize.ShloMosaic.ValueIdx

variable {α : Type}

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.Lib

end
-- ==== Proof.Tail.lean ====
/-
  The kernel program's results after its region, as functions of the argument arrays.

  The region leaves the three arrays `Gz`, `Ga`, `Gl` (the sample, the assignment, the loss column). The host operations
  after the region read two of them: the loss column reshaped to a vector, and the category loss of the assignment
  array (`Spec.cate`). Every other buffer they see is as the region left it.
-/
import proofs.«149031_j76905684402362_1_alg».proof.Proof.BlocksOut
import proofs.«149031_j76905684402362_1_alg».proof.Proof.Cate
import proofs.«149031_j76905684402362_1_alg».proof.Proof.LibColumnBack
import Idealize.ShloMosaic.Lib.StableHlo.Run

set_option maxRecDepth 16384

noncomputable section

namespace Cert.KernelTail

open Cert.KernelIdeal Cert.KernelIdeal.Gen Idealize.ShloMosaic Idealize.ShloMosaic.TcCoe Idealize.ShloMosaic.ValueIdx
open Idealize.SL.Sem Idealize.ShloMosaic.StableHlo Cert.KernelBlocks
open Idealize.ShloMosaic.Pipeline (Dat)

variable (m : (ℓ : Loc nD τ sig) → Buf (Elt Ideal) ℓ)

/-- The loss vector: the specification's loss at every row. -/
def lossVec (c : Dev nD) : S8192.Idx → EReal :=
  fun i => Spec.loss (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0)

/-- The category loss of the assignment array. -/
def cateVal (c : Dev nD) : S_.Idx → EReal :=
  Spec.cate reducesTo_S8192x512_S512_d0 h_S_ bcast_S_S512 reducesTo_S512_S_d0 (Ga m c)

/-- What the region leaves in the loss column's buffer. -/
theorem arr12 (c : Dev nD) :
    Pipeline.withArrays spec0 c (V0 m c) (fun w => (dats m 0 c).arrAt w cfg0.N) (Proc.devRef .tc main_v18_2) = Gl m c :=
  (Pipeline.withArrays_arr spec0 launch0.win.arr_inj c (V0 m c) (fun w => (dats m 0 c).arrAt w cfg0.N) 12).trans (final12 m c)

/-- What the region leaves in the assignment array's buffer. -/
theorem arr11 (c : Dev nD) :
    Pipeline.withArrays spec0 c (V0 m c) (fun w => (dats m 0 c).arrAt w cfg0.N) (Proc.devRef .tc main_v18_1) = Ga m c :=
  (Pipeline.withArrays_arr spec0 launch0.win.arr_inj c (V0 m c) (fun w => (dats m 0 c).arrAt w cfg0.N) 11).trans (final11 m c)

/-- The second result: the loss column read back as a vector. -/
theorem tail_v19 (c : Dev nD) :
    Pipeline.afterTail₀ cfgs (dats m) 0 (V0 m) [hostOps1] c main_v19 = lossVec m c := by
  unfold Pipeline.afterTail₀
  show StableHlo.after hostOps1 _ (Proc.devRef .tc main_v19) = _
  after_results
  refine Eq.trans (b := shapeCast S8192 (Gl m c) shapeCasts_S8192x1_S8192) ?_ ?_
  · refine Eq.trans ?_ (congrArg (fun a => shapeCast S8192 a shapeCasts_S8192x1_S8192) (arr12 m c))
    rfl
  · funext i
    obtain ⟨p, rfl⟩ : ∃ p : Fin 8192, i = ix1 p := ⟨i 0, eq_ix1 i⟩
    exact Cert.Lib.shapeCast_a1_a_apply (Gl m c) shapeCasts_S8192x1_S8192 p

/-- The third result: the category loss of the assignment array. -/
theorem tail_v26 (c : Dev nD) :
    Pipeline.afterTail₀ cfgs (dats m) 0 (V0 m) [hostOps1] c main_v26 = cateVal m c := by
  unfold Pipeline.afterTail₀
  show StableHlo.after hostOps1 _ (Proc.devRef .tc main_v26) = _
  after_results
  refine Eq.trans ?_ (congrArg (Spec.cate reducesTo_S8192x512_S512_d0 h_S_ bcast_S_S512 reducesTo_S512_S_d0) (arr11 m c))
  rfl

end Cert.KernelTail

end
-- ==== Proof.KernelRun.lean ====
/-
  The kernel program's run, read: every weakly fair execution ends with the sample array, the loss vector and the
  category loss of the assignment array at the specification's values of the arguments, and the arguments unchanged.
-/
import proofs.«149031_j76905684402362_1_alg».proof.Proof.Tail

set_option maxRecDepth 16384

noncomputable section

namespace Cert.KernelTail

open Cert.KernelIdeal Cert.KernelIdeal.Gen Idealize.ShloMosaic Idealize.ShloMosaic.TcCoe Idealize.ShloMosaic.ValueIdx
open Idealize.SL.Sem Cert.KernelBlocks
open Idealize.ShloMosaic.Pipeline (Dat)

variable (m : (ℓ : Loc nD τ sig) → Buf (Elt Ideal) ℓ) (ρ : Dev nD → PrngReg)

theorem kernel_run :
    θ_run (defs (F := Ideal)) (onTc (τ := τ) (main (F := Ideal))) ⟨m, fun _ => 0, ρ⟩ (fun r => ∀ c : Dev nD,
      r.2.mem ((c.tc : Thread nD τ).loc main_v18_0) = Gz m c
      ∧ r.2.mem ((c.tc : Thread nD τ).loc main_v19) = lossVec m c
      ∧ r.2.mem ((c.tc : Thread nD τ).loc main_v26) = cateVal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 10).trans (final10 m c),
      ((h c).2 main_v19 (Pipeline.mem_restRefs_of main_v19 (by decide) (by decide))).trans (tail_v19 m c),
      ((h c).2 main_v26 (Pipeline.mem_restRefs_of main_v26 (by decide) (by decide))).trans (tail_v26 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).1 1).trans (((dats m 0 c).arrAt_in 1 rfl _).trans ((A_eq m c 1).trans (V_main_arg7 m c)))⟩)
    (run_main m ρ)

end Cert.KernelTail

end
-- ==== Proof.RefIsSpec.lean ====
/-
  The reference program computes the row-by-row specification.

  Each stage of the reference, read at explicit coordinates, is the named quantity of the specification at those
  coordinates: the two affine maps, the sample, the per-centre terms, the expanded quadratic form, the logits, their
  row maximum, the shifted exponentials and their sum, the assignment, the per-centre average and the row's loss.
  Every step is an unfolding: a transposed or broadcast operand is read at the permuted or projected coordinate,
  a matrix product is the plain sum over the contracted coordinate, a float sum is its initial word plus the sum,
  and the row maximum is the fold of `max` over the row's coordinates.
-/
import proofs.«149031_j76905684402362_1_alg».proof.Proof.Gen.ReferenceIdeal.Read
import proofs.«149031_j76905684402362_1_alg».proof.Proof.Spec
import Idealize.ShloMosaic.Lib.ValueIdx
import Idealize.ShloMosaic.PureOps.Ideal.Laws
import Idealize.ShloMosaic.PureOps.Reduce

noncomputable section

namespace Cert.RefIsSpec

open Cert.ReferenceIdeal Cert.ReferenceIdeal.Gen Cert.ReferenceIdeal.Read Idealize.ShloMosaic Idealize.ShloMosaic.ValueIdx
open scoped BigOperators

/-- The argument arrays, typed as the reference's reading types them. -/
abbrev AX := (⟨S8192x1024, .f32⟩ : BufTy).Contents (Elt Ideal)
abbrev AW := (⟨S1024x1024, .f32⟩ : BufTy).Contents (Elt Ideal)
abbrev Ab := (⟨S1024, .f32⟩ : BufTy).Contents (Elt Ideal)
abbrev AC := (⟨S512x1024, .f32⟩ : BufTy).Contents (Elt Ideal)

/-- Two indices with equal coordinates are equal: rank two and rank one. -/
local macro "idx2" : tactic =>
  `(tactic| exact funext fun a => Fin.ext (by match a with | ⟨0, _⟩ => rfl | ⟨1, _⟩ => rfl))
local macro "idx1" : tactic =>
  `(tactic| exact funext fun a => Fin.ext (by match a with | ⟨0, _⟩ => rfl))

/-! ## The two affine maps and the sample -/

/-- The mean: the product with the transposed weights plus the broadcast bias. -/
theorem ref_mu (x0 : AX) (x1 : AW) (x2 : Ab) (p : Fin 8192) (q : Fin 1024) :
    val_main_v4 (F := Ideal) x0 x1 x2 (ix2 p q) = Cert.Spec.aff x0 x1 x2 p q := by
  rw [val_main_v4_apply, val_main_v1_apply, val_main_v3_apply, val_main_v2_apply, Ideal.addf_def]
  unfold Cert.Spec.aff
  refine congrArg₂ (· + ·) (Finset.sum_congr rfl fun k _ => ?_) (congrArg x2 (by idx1))
  rw [val_main_v0_apply]
  exact congrArg₂ (· * ·) (congrArg x0 (by idx2)) (congrArg x1 (by idx2))

/-- The log-variance: the same affine map with the second weights and bias. -/
theorem ref_ls (x0 : AX) (x3 : AW) (x4 : Ab) (p : Fin 8192) (q : Fin 1024) :
    val_main_v9 (F := Ideal) x0 x3 x4 (ix2 p q) = Cert.Spec.aff x0 x3 x4 p q := by
  rw [val_main_v9_apply, val_main_v6_apply, val_main_v8_apply, val_main_v7_apply, Ideal.addf_def]
  unfold Cert.Spec.aff
  refine congrArg₂ (· + ·) (Finset.sum_congr rfl fun k _ => ?_) (congrArg x4 (by idx1))
  rw [val_main_v5_apply]
  exact congrArg₂ (· * ·) (congrArg x0 (by idx2)) (congrArg x3 (by idx2))

/-- The sample: the mean plus the scaled noise. -/
theorem ref_z (x0 : AX) (x1 : AW) (x2 : Ab) (x3 : AW) (x4 : Ab) (x7 : AX) (p : Fin 8192) (q : Fin 1024) :
    val_main_v14 (F := Ideal) x0 x1 x2 x3 x4 x7 (ix2 p q) = Cert.Spec.zs x0 x1 x2 x3 x4 x7 p q := by
  rw [val_main_v14_apply, val_main_v13_apply, val_main_v12_apply, val_main_v11_apply, val_main_v10_apply,
    ref_mu, ref_ls]
  rfl

/-! ## The per-centre terms -/

/-- The inverse variance: the exponential of the negated log-variance. -/
theorem ref_isg (x6 : AC) (c : Fin 512) (h : Fin 1024) :
    val_main_v16 (F := Ideal) x6 (ix2 c h) = Cert.Spec.isg x6 c h := by
  rw [val_main_v16_apply, val_main_v15_apply]
  rfl

/-- The centre over its variance. -/
theorem ref_mi (x5 x6 : AC) (c : Fin 512) (h : Fin 1024) :
    val_main_v17 (F := Ideal) x5 x6 (ix2 c h) = Cert.Spec.mi x5 x6 c h := by
  rw [val_main_v17_apply, ref_isg]
  rfl

/-- The centre's own quadratic term: the zero word plus the row's sum. -/
theorem ref_c2 (x5 x6 : AC) (c : Fin 512) :
    val_main_v19 (F := Ideal) x5 x6 (ix1 c) = Cert.Spec.c2 x5 x6 c := by
  rw [val_main_v19_apply]
  unfold Cert.Spec.c2
  refine congrArg₂ (· + ·) rfl (Finset.sum_congr rfl fun k _ => ?_)
  rw [show idx_main_v19 (ix1 c) k = ix2 c k from by idx2, val_main_v18_apply, ref_mi]
  rfl

/-- The centre's summed log-variance. -/
theorem ref_sl (x6 : AC) (c : Fin 512) :
    val_main_v43 (F := Ideal) x6 (ix1 c) = Cert.Spec.sl x6 c := by
  rw [val_main_v43_apply]
  unfold Cert.Spec.sl
  exact congrArg₂ (· + ·) rfl (Finset.sum_congr rfl fun k _ => congrArg x6 (by idx2))

/-! ## The expanded quadratic form, of the sample and of the mean -/

/-- The form of the sample's row against a centre. -/
theorem ref_mah_z (x0 : AX) (x1 : AW) (x2 : Ab) (x3 : AW) (x4 : Ab) (x5 x6 : AC) (x7 : AX) (p : Fin 8192) (c : Fin 512) :
    val_main_v30 (F := Ideal) x0 x1 x2 x3 x4 x5 x6 x7 (ix2 p c)
      = Cert.Spec.mah x5 x6 (Cert.Spec.zs x0 x1 x2 x3 x4 x7 p) c := by
  rw [val_main_v30_apply, val_main_v27_apply, val_main_v22_apply, val_main_v26_apply, val_main_v25_apply,
    val_main_v24_apply, val_main_v29_apply, val_main_v28_apply,
    show idx_main_v28 (idx_main_v29 (ix2 p c)) = ix1 c from by idx1, ref_c2,
    Ideal.addf_def, Ideal.subf_def, Ideal.mulf_def]
  unfold Cert.Spec.mah
  refine congrArg₂ (· + ·) (congrArg₂ (· - ·) (Finset.sum_congr rfl fun k _ => ?_)
    (congrArg₂ (· * ·) rfl (Finset.sum_congr rfl fun k _ => ?_))) rfl
  · rw [show lidx_main_v22 (ix2 p c) k = ix2 p k from by idx2, show ridx_main_v22 (ix2 p c) k = ix2 k c from by idx2,
      val_main_v20_apply, val_main_v21_apply, show idx_main_v21 (ix2 k c) = ix2 c k from by idx2, ref_z, ref_isg]
    rfl
  · rw [show lidx_main_v24 (ix2 p c) k = ix2 p k from by idx2, show ridx_main_v24 (ix2 p c) k = ix2 k c from by idx2,
      val_main_v23_apply, show idx_main_v23 (ix2 k c) = ix2 c k from by idx2, ref_z, ref_mi]

/-! ## The assignment: a softmax over the centres, computed against the row maximum -/

/-- The logits: the negated form of the sample. -/
theorem ref_lg (x0 : AX) (x1 : AW) (x2 : Ab) (x3 : AW) (x4 : Ab) (x5 x6 : AC) (x7 : AX) (p : Fin 8192) (c : Fin 512) :
    val_main_v31 (F := Ideal) x0 x1 x2 x3 x4 x5 x6 x7 (ix2 p c) = Cert.Spec.lg x0 x1 x2 x3 x4 x5 x6 x7 p c := by
  rw [val_main_v31_apply, ref_mah_z]
  rfl

/-- The shapes of the row reduction: a row index with a centre's coordinate put back is the pair. -/
theorem reduces_rows : S8192x512.Reduces [1] S8192 := by decide

theorem lift_rows (p : Fin 8192) (k : Fin (S8192x512.size 1)) :
    reduces_rows.lift (ix1 p) k = ix2 p (⟨k.val, k.isLt⟩ : Fin 512) := by
  funext c; apply Fin.ext
  fin_cases c <;> rfl

/-- The maximum-reduce of the logits over the centres, at row `p`: the fold of `max` from −∞ over that row. -/
theorem ref_rowmax (x0 : AX) (x1 : AW) (x2 : Ab) (x3 : AW) (x4 : Ab) (x5 x6 : AC) (x7 : AX) (p : Fin 8192) :
    val_main_v32 (F := Ideal) x0 x1 x2 x3 x4 x5 x6 x7 (ix1 p)
      = (Finset.univ : Finset (Fin 512)).fold max Cert.Spec.ninf (fun c => Cert.Spec.lg x0 x1 x2 x3 x4 x5 x6 x7 p c) := by
  unfold val_main_v32
  refine (Host.reduce_eq_fold_single (FloatOps.maximumf (F := Ideal) (φ := .f32))
    (val_main_v31 (F := Ideal) x0 x1 x2 x3 x4 x5 x6 x7 : FVec Ideal S8192x512 .f32) _
    reducesTo_S8192x512_S8192_d1 reduces_rows h_S_ (ix1 p)).trans ?_
  have hf : ((val_main_v31 (F := Ideal) x0 x1 x2 x3 x4 x5 x6 x7 : FVec Ideal S8192x512 .f32) ∘ reduces_rows.lift (ix1 p))
      = fun c : Fin 512 => Cert.Spec.lg x0 x1 x2 x3 x4 x5 x6 x7 p c :=
    funext fun k => by
      show val_main_v31 (F := Ideal) x0 x1 x2 x3 x4 x5 x6 x7 (reduces_rows.lift (ix1 p) k) = _
      rw [lift_rows, ref_lg]
      rfl
  exact congrArg (fun f => Finset.fold max Cert.Spec.ninf f (Finset.univ : Finset (Fin 512))) hf

/-- The row's largest logit, guarded by −∞. -/
theorem ref_mx (x0 : AX) (x1 : AW) (x2 : Ab) (x3 : AW) (x4 : Ab) (x5 x6 : AC) (x7 : AX) (p : Fin 8192) :
    val_main_v34 (F := Ideal) x0 x1 x2 x3 x4 x5 x6 x7 (ix1 p) = Cert.Spec.mx x0 x1 x2 x3 x4 x5 x6 x7 p := by
  rw [val_main_v34_apply, val_main_v33_apply, ref_rowmax]
  rfl

/-- The shifted exponentials. -/
theorem ref_ex (x0 : AX) (x1 : AW) (x2 : Ab) (x3 : AW) (x4 : Ab) (x5 x6 : AC) (x7 : AX) (p : Fin 8192) (c : Fin 512) :
    val_main_v38 (F := Ideal) x0 x1 x2 x3 x4 x5 x6 x7 (ix2 p c) = Cert.Spec.ex x0 x1 x2 x3 x4 x5 x6 x7 p c := by
  rw [val_main_v38_apply, val_main_v37_apply, val_main_v36_apply, val_main_v35_apply,
    show idx_main_v35 (idx_main_v36 (ix2 p c)) = ix1 p from by idx1, ref_mx, ref_lg]
  rfl

/-- Their sum over the centres. -/
theorem ref_se (x0 : AX) (x1 : AW) (x2 : Ab) (x3 : AW) (x4 : Ab) (x5 x6 : AC) (x7 : AX) (p : Fin 8192) :
    val_main_v39 (F := Ideal) x0 x1 x2 x3 x4 x5 x6 x7 (ix1 p) = Cert.Spec.se x0 x1 x2 x3 x4 x5 x6 x7 p := by
  rw [val_main_v39_apply]
  unfold Cert.Spec.se
  refine congrArg₂ (· + ·) rfl (Finset.sum_congr rfl fun k _ => ?_)
  rw [show idx_main_v39 (ix1 p) k = ix2 p k from by idx2, ref_ex]

/-- The assignment of row `p` to centre `c`. -/
theorem ref_att (x0 : AX) (x1 : AW) (x2 : Ab) (x3 : AW) (x4 : Ab) (x5 x6 : AC) (x7 : AX) (p : Fin 8192) (c : Fin 512) :
    val_main_v42 (F := Ideal) x0 x1 x2 x3 x4 x5 x6 x7 (ix2 p c) = Cert.Spec.att x0 x1 x2 x3 x4 x5 x6 x7 p c := by
  rw [val_main_v42_apply, val_main_v41_apply, val_main_v40_apply,
    show idx_main_v40 (idx_main_v41 (ix2 p c)) = ix1 p from by idx1, ref_se, ref_ex]
  rfl

/-! ## The per-centre average and the row's loss -/

/-- The form of the mean's row against a centre. -/
theorem ref_mah_mu (x0 : AX) (x1 : AW) (x2 : Ab) (x5 x6 : AC) (p : Fin 8192) (c : Fin 512) :
    val_main_v60 (F := Ideal) x0 x1 x2 x5 x6 (ix2 p c)
      = Cert.Spec.mah x5 x6 (Cert.Spec.aff x0 x1 x2 p) c := by
  rw [val_main_v60_apply, val_main_v57_apply, val_main_v52_apply, val_main_v56_apply, val_main_v55_apply,
    val_main_v54_apply, val_main_v59_apply, val_main_v58_apply,
    show idx_main_v58 (idx_main_v59 (ix2 p c)) = ix1 c from by idx1, ref_c2,
    Ideal.addf_def, Ideal.subf_def, Ideal.mulf_def]
  unfold Cert.Spec.mah
  refine congrArg₂ (· + ·) (congrArg₂ (· - ·) (Finset.sum_congr rfl fun k _ => ?_)
    (congrArg₂ (· * ·) rfl (Finset.sum_congr rfl fun k _ => ?_))) rfl
  · rw [show lidx_main_v52 (ix2 p c) k = ix2 p k from by idx2, show ridx_main_v52 (ix2 p c) k = ix2 k c from by idx2,
      val_main_v50_apply, val_main_v51_apply, show idx_main_v51 (ix2 k c) = ix2 c k from by idx2, ref_mu, ref_isg]
    rfl
  · rw [show lidx_main_v54 (ix2 p c) k = ix2 p k from by idx2, show ridx_main_v54 (ix2 p c) k = ix2 k c from by idx2,
      val_main_v53_apply, show idx_main_v53 (ix2 k c) = ix2 c k from by idx2, ref_mu, ref_mi]

/-- The per-centre average term. -/
theorem ref_avg (x0 : AX) (x1 : AW) (x2 : Ab) (x3 : AW) (x4 : Ab) (x5 x6 : AC) (p : Fin 8192) (c : Fin 512) :
    val_main_v63 (F := Ideal) x0 x1 x2 x3 x4 x5 x6 (ix2 p c) = Cert.Spec.avg x0 x1 x2 x3 x4 x5 x6 p c := by
  rw [val_main_v63_apply, val_main_v61_apply, val_main_v49_apply, val_main_v48_apply, val_main_v44_apply,
    show idx_main_v44 (idx_main_v48 (ix2 p c)) = ix1 c from by idx1, ref_sl, val_main_v47_apply, ref_mah_mu,
    val_main_v62_apply]
  simp only [Ideal.hostDivf_def, Ideal.addf_def]
  unfold Cert.Spec.avg
  refine congrArg₂ Ideal.div (congrArg₂ (· + ·) (congrArg₂ (· + ·) rfl (Finset.sum_congr rfl fun k _ => ?_)) rfl) rfl
  rw [show lidx_main_v47 (ix2 p c) k = ix2 p k from by idx2, show ridx_main_v47 (ix2 p c) k = ix2 k c from by idx2,
    val_main_v45_apply, val_main_v46_apply, show idx_main_v46 (ix2 k c) = ix2 c k from by idx2, ref_ls, ref_isg]
  rfl

/-- The row's loss. -/
theorem ref_loss (x0 : AX) (x1 : AW) (x2 : Ab) (x3 : AW) (x4 : Ab) (x5 x6 : AC) (x7 : AX) (p : Fin 8192) :
    val_main_v75 (F := Ideal) x0 x1 x2 x3 x4 x5 x6 x7 (ix1 p) = Cert.Spec.loss x0 x1 x2 x3 x4 x5 x6 x7 p := by
  rw [val_main_v75_apply, val_main_v72_apply, val_main_v71_apply, val_main_v65_apply, val_main_v74_apply,
    val_main_v73_apply, val_main_v70_apply, val_main_v69_apply, val_main_v68_apply]
  simp only [Ideal.subf_def, Ideal.mulf_def, Ideal.hostDivf_def]
  unfold Cert.Spec.loss
  refine congrArg₂ (· - ·) (congrArg₂ (· * ·) rfl (congrArg₂ (· + ·) rfl (Finset.sum_congr rfl fun k _ => ?_)))
    (congrArg₂ (· * ·) rfl (congrArg₂ Ideal.div (congrArg₂ (· + ·) rfl (Finset.sum_congr rfl fun k _ => ?_)) rfl))
  · rw [show idx_main_v65 (ix1 p) k = ix2 p k from by idx2, val_main_v64_apply, ref_att, ref_avg]
    rfl
  · rw [show idx_main_v68 (ix1 p) k = ix2 p k from by idx2, val_main_v67_apply, val_main_v66_apply, ref_ls]
    rfl

end Cert.RefIsSpec

end
-- ==== Proof.RefArrays.lean ====
/-
  The reference's three results as whole arrays of the specification.

  Read at every index, the reference's sample array is the specification's sample, its loss vector the specification's
  loss, and its scalar the category loss (`Spec.cate`) of its assignment array, which is the specification's assignment.
-/
import proofs.«149031_j76905684402362_1_alg».proof.Proof.RefIsSpec
import proofs.«149031_j76905684402362_1_alg».proof.Proof.Cate

noncomputable section

namespace Cert.RefArrays

open Cert.ReferenceIdeal Cert.ReferenceIdeal.Gen Cert.ReferenceIdeal.Read Cert.RefIsSpec
open Idealize.ShloMosaic Idealize.ShloMosaic.ValueIdx

/-- The sample array. -/
theorem z_fun (x0 : AX) (x1 : AW) (x2 : Ab) (x3 : AW) (x4 : Ab) (x7 : AX) :
    val_main_v14 (F := Ideal) x0 x1 x2 x3 x4 x7 = fun i => Cert.Spec.zs x0 x1 x2 x3 x4 x7 (i 0) (i 1) := by
  funext i
  obtain ⟨p, q, rfl⟩ : ∃ (p : Fin 8192) (q : Fin 1024), i = ix2 p q := ⟨i 0, i 1, eq_ix2 i⟩
  exact ref_z x0 x1 x2 x3 x4 x7 p q

/-- The assignment array. -/
theorem att_fun (x0 : AX) (x1 : AW) (x2 : Ab) (x3 : AW) (x4 : Ab) (x5 x6 : AC) (x7 : AX) :
    val_main_v42 (F := Ideal) x0 x1 x2 x3 x4 x5 x6 x7 = fun i => Cert.Spec.att x0 x1 x2 x3 x4 x5 x6 x7 (i 0) (i 1) := by
  funext i
  obtain ⟨p, q, rfl⟩ : ∃ (p : Fin 8192) (q : Fin 512), i = ix2 p q := ⟨i 0, i 1, eq_ix2 i⟩
  exact ref_att x0 x1 x2 x3 x4 x5 x6 x7 p q

/-- The loss vector. -/
theorem loss_fun (x0 : AX) (x1 : AW) (x2 : Ab) (x3 : AW) (x4 : Ab) (x5 x6 : AC) (x7 : AX) :
    val_main_v75 (F := Ideal) x0 x1 x2 x3 x4 x5 x6 x7 = fun i => Cert.Spec.loss x0 x1 x2 x3 x4 x5 x6 x7 (i 0) := by
  funext i
  obtain ⟨p, rfl⟩ : ∃ p : Fin 8192, i = ix1 p := ⟨i 0, eq_ix1 i⟩
  exact ref_loss x0 x1 x2 x3 x4 x5 x6 x7 p

/-- The scalar: the category loss of the assignment array. -/
theorem cate_fun (x0 : AX) (x1 : AW) (x2 : Ab) (x3 : AW) (x4 : Ab) (x5 x6 : AC) (x7 : AX) :
    val_main_v82 (F := Ideal) x0 x1 x2 x3 x4 x5 x6 x7
      = Cert.Spec.cate reducesTo_S8192x512_S512_d0 h_S_ bcast_S_S512 reducesTo_S512_S_d0
          (fun i => Cert.Spec.att x0 x1 x2 x3 x4 x5 x6 x7 (i 0) (i 1)) :=
  Eq.trans (b := Cert.Spec.cate reducesTo_S8192x512_S512_d0 h_S_ bcast_S_S512 reducesTo_S512_S_d0
      (val_main_v42 (F := Ideal) x0 x1 x2 x3 x4 x5 x6 x7)) rfl
    (congrArg (Cert.Spec.cate reducesTo_S8192x512_S512_d0 h_S_ bcast_S_S512 reducesTo_S512_S_d0)
      (att_fun x0 x1 x2 x3 x4 x5 x6 x7))

end Cert.RefArrays

end
-- ==== Proof.lean ====
/-
  The kernel and its reference compute the same three results on the extended reals.

  Both programs are the variational clustering step: two affine maps of a batch give a mean and a log-variance; a
  sample is drawn by reparameterisation; its softmax assignment to 512 Gaussian centres is taken from the expanded
  Mahalanobis form; a per-row loss weighs the per-centre average terms by the assignment; a scalar is the mean over
  centres of `q log q` for the batch-mean assignment `q`. The kernel tiles the batch into 32 blocks of 256 rows, takes
  its weights transposed and its matrix products into zero accumulators; the reference works on whole arrays.
  Row by row both are the functions of `Spec.lean` (`zs`, `att`, `loss`) — no sum is split across blocks and no law beyond
  `0 + x = x` and `0 − x = −x` is used, so the inputs' finiteness is never opened — and the scalar is one and the same
  host function (`Spec.cate`) of the assignment array.

  The kernel side: the body's stored values read at an index (BodyAffine, BodySoftmax, BodyLoss, BodyRows), what the
  host lines before the region leave in the operand buffers (Prefix), blocks to arrays (BlocksIn, BlocksOut), the host
  lines after the region (Tail) and the run (KernelRun). The reference side: its stages read at an index (RefIsSpec)
  and as whole arrays (RefArrays). The three frames are the generated ones; the idealization rewrote nothing.
-/
import proofs.«149031_j76905684402362_1_alg».proof.Defs
import proofs.«149031_j76905684402362_1_alg».proof.Proof.Gen.Kernel
import proofs.«149031_j76905684402362_1_alg».proof.Proof.Gen.Kernel.Skeleton
import proofs.«149031_j76905684402362_1_alg».proof.Proof.Gen.Kernel.Launch
import proofs.«149031_j76905684402362_1_alg».proof.Proof.Gen.Kernel.Points
import proofs.«149031_j76905684402362_1_alg».proof.Proof.Gen.Kernel.Frame
import proofs.«149031_j76905684402362_1_alg».proof.Proof.Gen.KernelIdeal
import proofs.«149031_j76905684402362_1_alg».proof.Proof.Gen.KernelIdeal.Skeleton
import proofs.«149031_j76905684402362_1_alg».proof.Proof.Gen.KernelIdeal.Launch
import proofs.«149031_j76905684402362_1_alg».proof.Proof.Gen.KernelIdeal.Points
import proofs.«149031_j76905684402362_1_alg».proof.Proof.Gen.KernelIdeal.Frame
import proofs.«149031_j76905684402362_1_alg».proof.Proof.Gen.ReferenceIdeal
import proofs.«149031_j76905684402362_1_alg».proof.Proof.Gen.ReferenceIdeal.Run
import proofs.«149031_j76905684402362_1_alg».proof.Proof.Gen.ReferenceIdeal.Read
import proofs.«149031_j76905684402362_1_alg».proof.Proof.Gen.Pre_finite_inputs
import proofs.«149031_j76905684402362_1_alg».proof.Proof.KernelRun
import proofs.«149031_j76905684402362_1_alg».proof.Proof.RefArrays
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- Both programs end with the specification's sample array, loss vector and category loss of arguments that agree. -/
theorem algebraic : Cert.algebraic_KernelIdeal_ReferenceIdeal := by
  intro m ρ m' ρ' _ hagree
  refine ⟨fun c => Cert.KernelBlocks.Gz m c, fun c => Cert.KernelTail.lossVec m c, fun c => Cert.KernelTail.cateVal m c,
    Cert.KernelTail.kernel_run m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · obtain ⟨h0, h1, h2, h3, h4, h5, h6, h7⟩ := hagree c
    rw [Cert.ReferenceIdeal.Read.val_main_v14_eq, Cert.RefArrays.z_fun, h0, h1, h2, h3, h4, h7]
    rfl
  · obtain ⟨h0, h1, h2, h3, h4, h5, h6, h7⟩ := hagree c
    rw [Cert.ReferenceIdeal.Read.val_main_v75_eq, Cert.RefArrays.loss_fun, h0, h1, h2, h3, h4, h5, h6, h7]
    rfl
  · obtain ⟨h0, h1, h2, h3, h4, h5, h6, h7⟩ := hagree c
    rw [Cert.ReferenceIdeal.Read.val_main_v82_eq, Cert.RefArrays.cate_fun, h0, h1, h2, h3, h4, h5, h6, h7]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
